-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S10000x4 : Shape := ⟨2, ![10000, 4]⟩
abbrev S2x320000 : Shape := ⟨2, ![2, 320000]⟩
abbrev S10000 : Shape := ⟨1, ![10000]⟩
abbrev S512x512 : Shape := ⟨2, ![512, 512]⟩
abbrev S512 : Shape := ⟨1, ![512]⟩
abbrev S512x256 : Shape := ⟨2, ![512, 256]⟩
abbrev S256 : Shape := ⟨1, ![256]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S10000x4 : S_.BroadcastsInDim S10000x4 (![] : Fin 0 → Fin S10000x4.rank)
  reducesTo_S10000x4_S_d0_1 : S10000x4.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg6 : FVec F S512x256 .f32) (main_arg7 : FVec F S256 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x256 .f32 := Host.absf main_arg6
  let main_cst_6 : FVec F S_ .f32 := constant S_ .f32 0x7F800000#32
  let main_v20 : FVec F S512x256 .f32 := broadcastInDim S512x256 ![] bcast_S_S512x256 main_cst_6
  let main_v21 : IVec S512x256 1 := cmpf .olt main_v19 main_v20
  let main_c_7 : IVec S_ 1 := constantI S_ 1 1#1
  let main_v22 : IVec S_ 1 := (fun x v => Host.reduce IntOp.andi x v reducesTo_S512x256_S_d0_1 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  main_v28

def fn {F : FTy → Type} [FloatOps F] (main_arg0 : FVec F S10000x256 .f32) (main_arg1 : FVec F S10000x4 .f32) (main_arg2 : IVec S2x320000 32) (main_arg3 : IVec S10000 32) (main_arg4 : FVec F S512x512 .f32) (main_arg5 : FVec F S512 .f32) (main_arg6 : FVec F S512x256 .f32) (main_arg7 : FVec F S256 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S10000x4 .f32 := Host.absf main_arg1
  let main_cst_0 : FVec F S_ .f32 := constant S_ .f32 0x7F800000#32
  let main_v5 : FVec F S10000x4 .f32 := broadcastInDim S10000x4 ![] bcast_S_S10000x4 main_cst_0
  let main_v6 : IVec S10000x4 1 := cmpf .olt main_v4 main_v5
  let main_c_1 : IVec S_ 1 := constantI S_ 1 1#1
  let main_v7 : IVec S_ 1 := (fun x v => Host.reduce IntOp.andi x v reducesTo_S10000x4_S_d0_1 h_S_) main_v6 main_c_1
  let main_v8 : IVec S_ 1 := andi main_v3 main_v7
  let main_v9 : FVec F S512x512 .f32 := Host.absf main_arg4
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg5
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg6 main_arg7 main_v13 main_v16
-- ==== Kernel.lean ====
abbrev S10000x256 : Shape := ⟨2, ![10000, 256]⟩
abbrev S10000x4 : Shape := ⟨2, ![10000, 4]⟩
abbrev S2x320000 : Shape := ⟨2, ![2, 320000]⟩
abbrev S10000 : Shape := ⟨1, ![10000]⟩
abbrev S512x512 : Shape := ⟨2, ![512, 512]⟩
abbrev S512 : Shape := ⟨1, ![512]⟩
abbrev S512x256 : Shape := ⟨2, ![512, 256]⟩
abbrev S256 : Shape := ⟨1, ![256]⟩
abbrev S1x320000 : Shape := ⟨2, ![1, 320000]⟩
abbrev S320000 : Shape := ⟨1, ![320000]⟩
abbrev S256x512 : Shape := ⟨2, ![256, 512]⟩
abbrev S10000x512 : Shape := ⟨2, ![10000, 512]⟩
abbrev S_ : Shape := ⟨0, ![]⟩
abbrev S320000x1 : Shape := ⟨2, ![320000, 1]⟩
abbrev S320000x512 : Shape := ⟨2, ![320000, 512]⟩
abbrev S1x512 : Shape := ⟨2, ![1, 512]⟩
abbrev S1x256 : Shape := ⟨2, ![1, 256]⟩
abbrev S320000x256 : Shape := ⟨2, ![320000, 256]⟩
abbrev S3200x512 : Shape := ⟨2, ![3200, 512]⟩
abbrev S3200x256 : Shape := ⟨2, ![3200, 256]⟩
abbrev S10000x1 : Shape := ⟨2, ![10000, 1]⟩
abbrev S16x256 : Shape := ⟨2, ![16, 256]⟩

abbrev nBuf : Space → Nat
  | .hbm => 55
  | .vmem => 9
  | .smem => 0
  | _ => 0

abbrev bufTy : (tb : Table) → Fin (tcTables nBuf tb) → BufTy
  | .hbm, ⟨0, _⟩ => ⟨S10000x256, .f32⟩
  | .hbm, ⟨1, _⟩ => ⟨S10000x4, .f32⟩
  | .hbm, ⟨2, _⟩ => ⟨S2x320000, .i32⟩
  | .hbm, ⟨3, _⟩ => ⟨S10000, .i32⟩
  | .hbm, ⟨4, _⟩ => ⟨S512x512, .f32⟩
  | .hbm, ⟨5, _⟩ => ⟨S512, .f32⟩
  | .hbm, ⟨6, _⟩ => ⟨S512x256, .f32⟩
  | .hbm, ⟨7, _⟩ => ⟨S256, .f32⟩
  | .hbm, ⟨8, _⟩ => ⟨S1x320000, .i32⟩
  | .hbm, ⟨9, _⟩ => ⟨S320000, .i32⟩
  | .hbm, ⟨10, _⟩ => ⟨S1x320000, .i32⟩
  | .hbm, ⟨11, _⟩ => ⟨S320000, .i32⟩
  | .hbm, ⟨12, _⟩ => ⟨S256x512, .f32⟩
  | .hbm, ⟨13, _⟩ => ⟨S256x512, .f32⟩
  | .hbm, ⟨14, _⟩ => ⟨S256x512, .f32⟩
  | .hbm, ⟨15, _⟩ => ⟨S256x512, .bf16⟩
  | .hbm, ⟨16, _⟩ => ⟨S256x512, .bf16⟩
  | .hbm, ⟨17, _⟩ => ⟨S10000x256, .bf16⟩
  | .hbm, ⟨18, _⟩ => ⟨S10000x512, .f32⟩
  | .hbm, ⟨19, _⟩ => ⟨S10000x512, .bf16⟩
  | .hbm, ⟨20, _⟩ => ⟨S10000x512, .f32⟩
  | .hbm, ⟨21, _⟩ => ⟨S10000x512, .bf16⟩
  | .hbm, ⟨22, _⟩ => ⟨S_, .i32⟩
  | .hbm, ⟨23, _⟩ => ⟨S320000, .i32⟩
  | .hbm, ⟨24, _⟩ => ⟨S320000, .i1⟩
  | .hbm, ⟨25, _⟩ => ⟨S_, .i32⟩
  | .hbm, ⟨26, _⟩ => ⟨S320000, .i32⟩
  | .hbm, ⟨27, _⟩ => ⟨S320000, .i32⟩
  | .hbm, ⟨28, _⟩ => ⟨S320000, .i32⟩
  | .hbm, ⟨29, _⟩ => ⟨S320000x1, .i32⟩
  | .hbm, ⟨30, _⟩ => ⟨S320000x512, .bf16⟩
  | .hbm, ⟨31, _⟩ => ⟨S_, .i32⟩
  | .hbm, ⟨32, _⟩ => ⟨S320000, .i32⟩
  | .hbm, ⟨33, _⟩ => ⟨S320000, .i1⟩
  | .hbm, ⟨34, _⟩ => ⟨S_, .i32⟩
  | .hbm, ⟨35, _⟩ => ⟨S320000, .i32⟩
  | .hbm, ⟨36, _⟩ => ⟨S320000, .i32⟩
  | .hbm, ⟨37, _⟩ => ⟨S320000, .i32⟩
  | .hbm, ⟨38, _⟩ => ⟨S320000x1, .i32⟩
  | .hbm, ⟨39, _⟩ => ⟨S320000x512, .bf16⟩
  | .hbm, ⟨40, _⟩ => ⟨S512x256, .bf16⟩
  | .hbm, ⟨41, _⟩ => ⟨S1x512, .f32⟩
  | .hbm, ⟨42, _⟩ => ⟨S1x256, .f32⟩
  | .hbm, ⟨43, _⟩ => ⟨S320000x256, .f32⟩
  | .hbm, ⟨44, _⟩ => ⟨S_, .f32⟩
  | .hbm, ⟨45, _⟩ => ⟨S10000x256, .f32⟩
  | .hbm, ⟨46, _⟩ => ⟨S320000x1, .i32⟩
  | .hbm, ⟨47, _⟩ => ⟨S10000x256, .f32⟩
  | .hbm, ⟨48, _⟩ => ⟨S10000x1, .f32⟩
  | .hbm, ⟨49, _⟩ => ⟨S10000x256, .f32⟩
  | .hbm, ⟨50, _⟩ => ⟨S10000x256, .f32⟩
  | .hbm, ⟨51, _⟩ => ⟨S_, .f32⟩
  | .hbm, ⟨52, _⟩ => ⟨S16x256, .f32⟩
  | .hbm, ⟨53, _⟩ => ⟨S10000x1, .i32⟩
  | .hbm, ⟨54, _⟩ => ⟨S16x256, .f32⟩
  | .local _ .vmem, ⟨0, _⟩ => ⟨S3200x512, .bf16⟩
  | .local _ .vmem, ⟨1, _⟩ => ⟨S3200x512, .bf16⟩
  | .local _ .vmem, ⟨2, _⟩ => ⟨S3200x512, .bf16⟩
  | .local _ .vmem, ⟨3, _⟩ => ⟨S3200x512, .bf16⟩
  | .local _ .vmem, ⟨4, _⟩ => ⟨S1x512, .f32⟩
  | .local _ .vmem, ⟨5, _⟩ => ⟨S512x256, .bf16⟩
  | .local _ .vmem, ⟨6, _⟩ => ⟨S1x256, .f32⟩
  | .local _ .vmem, ⟨7, _⟩ => ⟨S3200x256, .f32⟩
  | .local _ .vmem, ⟨8, _⟩ => ⟨S3200x256, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c : Ref sig .tc := ⟨.hbm, 22, rfl⟩
abbrev main_v14 : Ref sig .tc := ⟨.hbm, 23, rfl⟩
abbrev main_v15 : Ref sig .tc := ⟨.hbm, 24, rfl⟩
abbrev main_c_0 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_1 : Ref sig .tc := ⟨.hbm, 31, rfl⟩
abbrev main_v21 : Ref sig .tc := ⟨.hbm, 32, rfl⟩
abbrev main_v22 : Ref sig .tc := ⟨.hbm, 33, rfl⟩
abbrev main_c_2 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_3 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3200x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3200x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S3200x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  slices_S512x512_S256x512_0_0 : S512x512.Slices ![0, 0] S256x512
  slices_S512x512_S256x512_256_0 : S512x512.Slices ![256, 0] S256x512
  bitsLt_bf16_f32 : FTy.bits .bf16 < FTy.bits .f32
  bcast_S_S320000 : S_.BroadcastsInDim S320000 (![] : Fin 0 → Fin S320000.rank)
  bcast_S320000_S320000x1_0 : S320000.BroadcastsInDim S320000x1 (![0] : Fin 1 → Fin S320000x1.rank)
  shapeCasts_S512_S1x512 : S512.ShapeCasts S1x512
  shapeCasts_S256_S1x256 : S256.ShapeCasts S1x256
  inb_S3200x512_S3200x512_0_0 : ∀ a, (![0, 0] : Fin 2 → Nat) a + S3200x512.size a ≤ S3200x512.size a
  h_S3200x512 : 0 < S3200x512.numel
  shapeCasts_S3200x512_S3200x512 : S3200x512.ShapeCasts S3200x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S3200x512 : S1x512.Broadcasts S3200x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S3200x256 : S1x256.Broadcasts S3200x256
  inb_S3200x256_S3200x256_0_0 : ∀ a, (![0, 0] : Fin 2 → Nat) a + S3200x256.size a ≤ S3200x256.size a
  h_S3200x256 : 0 < S3200x256.numel
  bcast_S_S10000x256 : S_.BroadcastsInDim S10000x256 (![] : Fin 0 → Fin S10000x256.rank)
  slices_S10000x4_S10000x1_0_0 : S10000x4.Slices ![0, 0] S10000x1
  bcast_S10000x1_S10000x256_0_1 : S10000x1.BroadcastsInDim S10000x256 (![0, 1] : Fin 2 → Fin S10000x256.rank)
  bcast_S_S16x256 : S_.BroadcastsInDim S16x256 (![] : Fin 0 → Fin S16x256.rank)
  bcast_S10000_S10000x1_0 : S10000.BroadcastsInDim S10000x1 (![0] : Fin 1 → Fin S10000x1.rank)
  dot_S10000x256_S256x512_S10000x512_1_0_0_1_n_n_wf : DotDims.WF S10000x256 S256x512 S10000x512 [1] [0] [0] [1] [] []
  gather_S10000x512_S320000x1_S320000x512_1_0_n_n_0_1_1512_wf : GatherDims.WF S10000x512 S320000x1 S320000x512 [1] [0] [] [0] [] 1 ![1, 512]
  dot_S3200x512_S512x256_S3200x256_1_0_0_1_n_n_wf : DotDims.WF S3200x512 S512x256 S3200x256 [1] [0] [0] [1] [] []
  scatter_S10000x256_S320000x1_S320000x256_1_0_0_1_wf : ScatterDims.WF S10000x256 S320000x1 S320000x256 [1] [0] [0] 1
  scatter_S16x256_S10000x1_S10000x256_1_0_0_1_wf : ScatterDims.WF S16x256 S10000x1 S10000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3200x512.size a ≤ S320000x512.size a
  hwx0_0 : ∀ i : grid0.Coords, EltTy.bits .bf16 = 32 ∨ (Rect.block (s := S320000x512) S3200x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3200x512.size a ≤ S320000x512.size a
  hwx0_1 : ∀ i : grid0.Coords, EltTy.bits .bf16 = 32 ∨ (Rect.block (s := S320000x512) S3200x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S512x256.size a
  hwx0_3 : ∀ i : grid0.Coords, EltTy.bits .bf16 = 32 ∨ (Rect.block (s := S512x256) S512x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S3200x256.size a ≤ S320000x256.size a
  hwx0_5 : ∀ i : grid0.Coords, EltTy.bits .f32 = 32 ∨ (Rect.block (s := S320000x256) S3200x256.size (cc0_transform_5 i) (hinb0_5 i)).WholeWords (EltTy.packing .f32)

variable [Facts₀]

def dot_S10000x256_S256x512_S10000x512_1_0_0_1_n_n : DotDims S10000x256 S256x512 S10000x512 where
  lhsContracting := [1]
  rhsContracting := [0]
  lhsNonContracting := [0]
  rhsNonContracting := [1]
  lhsBatch := []
  rhsBatch := []
  wf := dot_S10000x256_S256x512_S10000x512_1_0_0_1_n_n_wf
def gather_S10000x512_S320000x1_S320000x512_1_0_n_n_0_1_1512 : GatherDims S10000x512 S320000x1 S320000x512 where
  offsetDims := [1]
  collapsedSliceDims := [0]
  operandBatchingDims := []
  startIndicesBatchingDims := []
  startIndexMap := [0]
  indexVectorDim := 1
  sliceSizes := ![1, 512]
  wf := gather_S10000x512_S320000x1_S320000x512_1_0_n_n_0_1_1512_wf
def dot_S3200x512_S512x256_S3200x256_1_0_0_1_n_n : DotDims S3200x512 S512x256 S3200x256 where
  lhsContracting := [1]
  rhsContracting := [0]
  lhsNonContracting := [0]
  rhsNonContracting := [1]
  lhsBatch := []
  rhsBatch := []
  wf := dot_S3200x512_S512x256_S3200x256_1_0_0_1_n_n_wf
def scatter_S10000x256_S320000x1_S320000x256_1_0_0_1 : ScatterDims S10000x256 S320000x1 S320000x256 where
  updateWindowDims := [1]
  insertedWindowDims := [0]
  scatterDimsToOperandDims := [0]
  indexVectorDim := 1
  wf := scatter_S10000x256_S320000x1_S320000x256_1_0_0_1_wf
def scatter_S16x256_S10000x1_S10000x256_1_0_0_1 : ScatterDims S16x256 S10000x1 S10000x256 where
  updateWindowDims := [1]
  insertedWindowDims := [0]
  scatterDimsToOperandDims := [0]
  indexVectorDim := 1
  wf := scatter_S16x256_S10000x1_S10000x256_1_0_0_1_wf

abbrev win0_0 : Pipeline.Window sig grid0 :=
  Pipeline.Window.ofSpec (Memref.whole main_v20) S3200x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v27) S3200x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v29) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v28) S512x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v30) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v31) S3200x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S10000x256 : Shape := ⟨2, ![10000, 256]⟩
abbrev S10000x4 : Shape := ⟨2, ![10000, 4]⟩
abbrev S2x320000 : Shape := ⟨2, ![2, 320000]⟩
abbrev S10000 : Shape := ⟨1, ![10000]⟩
abbrev S512x512 : Shape := ⟨2, ![512, 512]⟩
abbrev S512 : Shape := ⟨1, ![512]⟩
abbrev S512x256 : Shape := ⟨2, ![512, 256]⟩
abbrev S256 : Shape := ⟨1, ![256]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S320000x256 : Shape := ⟨2, ![320000, 256]⟩
abbrev S320000x512 : Shape := ⟨2, ![320000, 512]⟩
abbrev S1x512 : Shape := ⟨2, ![1, 512]⟩
abbrev S1x256 : Shape := ⟨2, ![1, 256]⟩
abbrev S10000x1 : Shape := ⟨2, ![10000, 1]⟩
abbrev S16x256 : Shape := ⟨2, ![16, 256]⟩

abbrev nBuf : Space → Nat
  | .hbm => 54
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S10000x4, .f32⟩
  | .hbm, ⟨2, _⟩ => ⟨S2x320000, .i32⟩
  | .hbm, ⟨3, _⟩ => ⟨S10000, .i32⟩
  | .hbm, ⟨4, _⟩ => ⟨S512x512, .f32⟩
  | .hbm, ⟨5, _⟩ => ⟨S512, .f32⟩
  | .hbm, ⟨6, _⟩ => ⟨S512x256, .f32⟩
  | .hbm, ⟨7, _⟩ => ⟨S256, .f32⟩
  | .hbm, ⟨8, _⟩ => ⟨S1x320000, .i32⟩
  | .hbm, ⟨9, _⟩ => ⟨S320000, .i32⟩
  | .hbm, ⟨10, _⟩ => ⟨S1x320000, .i32⟩
  | .hbm, ⟨11, _⟩ => ⟨S320000, .i32⟩
  | .hbm, ⟨12, _⟩ => ⟨S_, .i32⟩
  | .hbm, ⟨13, _⟩ => ⟨S320000, .i32⟩
  | .hbm, ⟨14, _⟩ => ⟨S320000, .i1⟩
  | .hbm, ⟨15, _⟩ => ⟨S_, .i32⟩
  | .hbm, ⟨16, _⟩ => ⟨S320000, .i32⟩
  | .hbm, ⟨17, _⟩ => ⟨S320000, .i32⟩
  | .hbm, ⟨18, _⟩ => ⟨S320000, .i32⟩
  | .hbm, ⟨19, _⟩ => ⟨S320000x1, .i32⟩
  | .hbm, ⟨20, _⟩ => ⟨S320000x256, .f32⟩
  | .hbm, ⟨21, _⟩ => ⟨S_, .i32⟩
  | .hbm, ⟨22, _⟩ => ⟨S320000, .i32⟩
  | .hbm, ⟨23, _⟩ => ⟨S320000, .i1⟩
  | .hbm, ⟨24, _⟩ => ⟨S_, .i32⟩
  | .hbm, ⟨25, _⟩ => ⟨S320000, .i32⟩
  | .hbm, ⟨26, _⟩ => ⟨S320000, .i32⟩
  | .hbm, ⟨27, _⟩ => ⟨S320000, .i32⟩
  | .hbm, ⟨28, _⟩ => ⟨S320000x1, .i32⟩
  | .hbm, ⟨29, _⟩ => ⟨S320000x256, .f32⟩
  | .hbm, ⟨30, _⟩ => ⟨S320000x256, .f32⟩
  | .hbm, ⟨31, _⟩ => ⟨S320000x512, .f32⟩
  | .hbm, ⟨32, _⟩ => ⟨S320000x512, .f32⟩
  | .hbm, ⟨33, _⟩ => ⟨S1x512, .f32⟩
  | .hbm, ⟨34, _⟩ => ⟨S320000x512, .f32⟩
  | .hbm, ⟨35, _⟩ => ⟨S320000x512, .f32⟩
  | .hbm, ⟨36, _⟩ => ⟨S_, .f32⟩
  | .hbm, ⟨37, _⟩ => ⟨S320000x512, .f32⟩
  | .hbm, ⟨38, _⟩ => ⟨S320000x512, .f32⟩
  | .hbm, ⟨39, _⟩ => ⟨S320000x256, .f32⟩
  | .hbm, ⟨40, _⟩ => ⟨S1x256, .f32⟩
  | .hbm, ⟨41, _⟩ => ⟨S320000x256, .f32⟩
  | .hbm, ⟨42, _⟩ => ⟨S320000x256, .f32⟩
  | .hbm, ⟨43, _⟩ => ⟨S_, .f32⟩
  | .hbm, ⟨44, _⟩ => ⟨S10000x256, .f32⟩
  | .hbm, ⟨45, _⟩ => ⟨S320000x1, .i32⟩
  | .hbm, ⟨46, _⟩ => ⟨S10000x256, .f32⟩
  | .hbm, ⟨47, _⟩ => ⟨S10000x1, .f32⟩
  | .hbm, ⟨48, _⟩ => ⟨S10000x256, .f32⟩
  | .hbm, ⟨49, _⟩ => ⟨S10000x256, .f32⟩
  | .hbm, ⟨50, _⟩ => ⟨S_, .f32⟩
  | .hbm, ⟨51, _⟩ => ⟨S16x256, .f32⟩
  | .hbm, ⟨52, _⟩ => ⟨S10000x1, .i32⟩
  | .hbm, ⟨53, _⟩ => ⟨S16x256, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_call0_cst : Ref sig .tc := ⟨.hbm, 36, rfl⟩
abbrev main_call0_v0 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_3 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  concatenates_S320000x256_S320000x256_S320000x512_d1 : Shape.Concatenates [S320000x256, S320000x256] S320000x512 1
  bcast_S512_S1x512_1 : S512.BroadcastsInDim S1x512 (![1] : Fin 1 → Fin S1x512.rank)
  bcast_S1x512_S320000x512_0_1 : S1x512.BroadcastsInDim S320000x512 (![0, 1] : Fin 2 → Fin S320000x512.rank)
  bcast_S_S320000x512 : S_.BroadcastsInDim S320000x512 (![] : Fin 0 → Fin S320000x512.rank)
  bcast_S256_S1x256_1 : S256.BroadcastsInDim S1x256 (![1] : Fin 1 → Fin S1x256.rank)
  bcast_S1x256_S320000x256_0_1 : S1x256.BroadcastsInDim S320000x256 (![0, 1] : Fin 2 → Fin S320000x256.rank)
  bcast_S_S10000x256 : S_.BroadcastsInDim S10000x256 (![] : Fin 0 → Fin S10000x256.rank)
  slices_S10000x4_S10000x1_0_0 : S10000x4.Slices ![0, 0] S10000x1
  bcast_S10000x1_S10000x256_0_1 : S10000x1.BroadcastsInDim S10000x256 (![0, 1] : Fin 2 → Fin S10000x256.rank)
  bcast_S_S16x256 : S_.BroadcastsInDim S16x256 (![] : Fin 0 → Fin S16x256.rank)
  bcast_S10000_S10000x1_0 : S10000.BroadcastsInDim S10000x1 (![0] : Fin 1 → Fin S10000x1.rank)
  gather_S10000x256_S320000x1_S320000x256_1_0_n_n_0_1_1256_wf : GatherDims.WF S10000x256 S320000x1 S320000x256 [1] [0] [] [0] [] 1 ![1, 256]
  dot_S320000x512_S512x512_S320000x512_1_0_0_1_n_n_wf : DotDims.WF S320000x512 S512x512 S320000x512 [1] [0] [0] [1] [] []
  dot_S320000x512_S512x256_S320000x256_1_0_0_1_n_n_wf : DotDims.WF S320000x512 S512x256 S320000x256 [1] [0] [0] [1] [] []
  scatter_S10000x256_S320000x1_S320000x256_1_0_0_1_wf : ScatterDims.WF S10000x256 S320000x1 S320000x256 [1] [0] [0] 1
  scatter_S16x256_S10000x1_S10000x256_1_0_0_1_wf : ScatterDims.WF S16x256 S10000x1 S10000x256 [1] [0] [0] 1

variable [Facts₀]

def gather_S10000x256_S320000x1_S320000x256_1_0_n_n_0_1_1256 : GatherDims S10000x256 S320000x1 S320000x256 where
  offsetDims := [1]
  collapsedSliceDims := [0]
  operandBatchingDims := []
  startIndicesBatchingDims := []
  startIndexMap := [0]
  indexVectorDim := 1
  sliceSizes := ![1, 256]
  wf := gather_S10000x256_S320000x1_S320000x256_1_0_n_n_0_1_1256_wf
def dot_S320000x512_S512x512_S320000x512_1_0_0_1_n_n : DotDims S320000x512 S512x512 S320000x512 where
  lhsContracting := [1]
  rhsContracting := [0]
  lhsNonContracting := [0]
  rhsNonContracting := [1]
  lhsBatch := []
  rhsBatch := []
  wf := dot_S320000x512_S512x512_S320000x512_1_0_0_1_n_n_wf
def dot_S320000x512_S512x256_S320000x256_1_0_0_1_n_n : DotDims S320000x512 S512x256 S320000x256 where
  lhsContracting := [1]
  rhsContracting := [0]
  lhsNonContracting := [0]
  rhsNonContracting := [1]
  lhsBatch := []
  rhsBatch := []
  wf := dot_S320000x512_S512x256_S320000x256_1_0_0_1_n_n_wf
def scatter_S10000x256_S320000x1_S320000x256_1_0_0_1 : ScatterDims S10000x256 S320000x1 S320000x256 where
  updateWindowDims := [1]
  insertedWindowDims := [0]
  scatterDimsToOperandDims := [0]
  indexVectorDim := 1
  wf := scatter_S10000x256_S320000x1_S320000x256_1_0_0_1_wf
def scatter_S16x256_S10000x1_S10000x256_1_0_0_1 : ScatterDims S16x256 S10000x1 S10000x256 where
  updateWindowDims := [1]
  insertedWindowDims := [0]
  scatterDimsToOperandDims := [0]
  indexVectorDim := 1
  wf := scatter_S16x256_S10000x1_S10000x256_1_0_0_1_wf

class Facts : Prop extends Facts₀ where

variable [Facts]
-- ==== Proof.LibPlainDot.lean ====
/-
  A plain matrix product, read at an entry, and its row blocks.

  For the dimension numbers of [M, K] × [K, N] → [M, N] (contract the left operand's axis 1 with the right operand's
  axis 0, no batch axis), both spellings of the product over the extended reals are the textbook sum: the host's
  `dot_general`, and the kernel's `tpu.matmul` into a zero accumulator, read at entry (r, c), are
  ∑ₖ A(r, k) · W(k, c) over k < K. Hence a block of B consecutive rows of the product of the long matrix is the
  product of that block of its rows with the same right factor: entry (off + p, c) of A · W is entry (p, c) of
  (rows off … off + B of A) · W. Nothing here needs the entries finite: no sum is reordered and no factor moved.
  General in M, K, N, the block height and the offset.
-/
import Idealize.ShloMosaic.PureOps.Ideal
import Idealize.ShloMosaic.PureOps.Ideal.Laws
import Idealize.ShloMosaic.Lib.ValueIdx

noncomputable section

namespace Cert.LibPlainDot

open Idealize.ShloMosaic Idealize.ShloMosaic.ValueIdx

variable {M K N : Nat} {φ₁ φ₂ : FTy}

/-- The dimension numbers of [M, K] × [K, N] → [M, N]. -/
abbrev dims (wf : DotDims.WF (⟨2, ![M, K]⟩ : Shape) ⟨2, ![K, N]⟩ ⟨2, ![M, N]⟩ [1] [0] [0] [1] [] []) :
    DotDims (⟨2, ![M, K]⟩ : Shape) ⟨2, ![K, N]⟩ ⟨2, ![M, N]⟩ where
  lhsContracting := [1]
  rhsContracting := [0]
  lhsNonContracting := [0]
  rhsNonContracting := [1]
  lhsBatch := []
  rhsBatch := []
  wf := wf

variable (wf : DotDims.WF (⟨2, ![M, K]⟩ : Shape) ⟨2, ![K, N]⟩ ⟨2, ![M, N]⟩ [1] [0] [0] [1] [] [])

/-- The left operand's index at output entry (r, c) and contraction index q: row r … -/
theorem lhs_row (r : Fin M) (c : Fin N) (q : (dims wf).contr.Idx) : ((dims wf).lhsIdx (ix2 r c) q 0).val = r.val := by
  unfold DotDims.lhsIdx
  rw [dif_neg (show ¬(0 : Fin 2) ∈ (dims wf).lhsBatch from List.not_mem_nil), dif_pos (show (0 : Fin 2) ∈ (dims wf).lhsNonContracting from List.mem_singleton.mpr rfl)]
  rfl

/-- … column q. -/
theorem lhs_col (r : Fin M) (c : Fin N) (q : (dims wf).contr.Idx) : ((dims wf).lhsIdx (ix2 r c) q 1).val = (q ⟨0, Nat.one_pos⟩).val :=
  (dims wf).lhsIdx_val_of_single rfl (ix2 r c) q

/-- The right operand's index there: row q … -/
theorem rhs_row (r : Fin M) (c : Fin N) (q : (dims wf).contr.Idx) : ((dims wf).rhsIdx (ix2 r c) q 0).val = (q ⟨0, Nat.one_pos⟩).val :=
  (dims wf).rhsIdx_val_of_single rfl (ix2 r c) q

/-- … column c. -/
theorem rhs_col (r : Fin M) (c : Fin N) (q : (dims wf).contr.Idx) : ((dims wf).rhsIdx (ix2 r c) q 1).val = c.val := by
  unfold DotDims.rhsIdx
  rw [dif_neg (show ¬(1 : Fin 2) ∈ (dims wf).rhsBatch from List.not_mem_nil), dif_pos (show (1 : Fin 2) ∈ (dims wf).rhsNonContracting from List.mem_singleton.mpr rfl)]
  rfl

/-- The sum over the dot's contraction index is the sum over k < K of A(r, k) · W(k, c). -/
theorem sum_contr (A : FVec Ideal ⟨2, ![M, K]⟩ φ₁) (W : FVec Ideal ⟨2, ![K, N]⟩ φ₂) (r : Fin M) (c : Fin N) :
    ∑ q : (dims wf).contr.Idx, A ((dims wf).lhsIdx (ix2 r c) q) * W ((dims wf).rhsIdx (ix2 r c) q)
      = ∑ k : Fin K, A (ix2 r k) * W (ix2 k c) := by
  rw [← Equiv.sum_comp (contrEquiv1 (dims wf) K rfl rfl).symm]
  refine Finset.sum_congr rfl fun k _ => ?_
  have hk := contrEquiv1_symm_val (dims wf) K rfl rfl k
  have el : (dims wf).lhsIdx (ix2 r c) ((contrEquiv1 (dims wf) K rfl rfl).symm k) = ix2 r k := funext fun a => Fin.ext (by
    match a with
    | ⟨0, _⟩ => exact lhs_row wf r c _
    | ⟨1, _⟩ => exact (lhs_col wf r c _).trans hk)
  have er : (dims wf).rhsIdx (ix2 r c) ((contrEquiv1 (dims wf) K rfl rfl).symm k) = ix2 k c := funext fun a => Fin.ext (by
    match a with
    | ⟨0, _⟩ => exact (rhs_row wf r c _).trans hk
    | ⟨1, _⟩ => exact rhs_col wf r c _)
  rw [el, er]

/-- The host's `dot_general` at entry (r, c): ∑ₖ A(r, k) · W(k, c). -/
theorem dotGeneral_apply (prec : Option ContractPrecision) (sched : HostSchedule)
    (A : FVec Ideal ⟨2, ![M, K]⟩ φ₁) (W : FVec Ideal ⟨2, ![K, N]⟩ φ₂) (r : Fin M) (c : Fin N) :
    FloatOps.dotGeneral (dims wf) prec sched A W (ix2 r c) = ∑ k : Fin K, A (ix2 r k) * W (ix2 k c) := by
  rw [Ideal.dotGeneral_apply]
  exact sum_contr wf A W r c

/-- The kernel's `tpu.matmul` into a zero accumulator at entry (r, c): the same sum. -/
theorem matmul_zero_apply (prec : Option ContractPrecision)
    (A : FVec Ideal ⟨2, ![M, K]⟩ φ₁) (W : FVec Ideal ⟨2, ![K, N]⟩ φ₂) (r : Fin M) (c : Fin N) :
    FloatOps.matmul (dims wf) prec A W (constant ⟨2, ![M, N]⟩ .f32 0x00000000#32) (ix2 r c) = ∑ k : Fin K, A (ix2 r k) * W (ix2 k c) := by
  rw [Ideal.matmul_constant_zero_apply]
  exact sum_contr wf A W r c

/-- ROW BLOCKS: entry (off + p, c) of the long product is entry (p, c) of the product of rows off … off + B of the
    left factor with the same right factor, the one a `dot_general`, the other a `tpu.matmul` into zero. -/
theorem dotGeneral_rows {B off : Nat} (hB : off + B ≤ M)
    (wfB : DotDims.WF (⟨2, ![B, K]⟩ : Shape) ⟨2, ![K, N]⟩ ⟨2, ![B, N]⟩ [1] [0] [0] [1] [] [])
    (prec prec' : Option ContractPrecision) (sched : HostSchedule)
    (A : FVec Ideal ⟨2, ![M, K]⟩ φ₁) (W : FVec Ideal ⟨2, ![K, N]⟩ φ₂) (p : Fin B) (c : Fin N) :
    FloatOps.dotGeneral (dims wf) prec sched A W (ix2 ⟨off + p.val, by have := p.isLt; omega⟩ c)
      = FloatOps.matmul (dims wfB) prec'
          (fun y : (⟨2, ![B, K]⟩ : Shape).Idx => A (ix2 ⟨off + (y 0).val, by have := idx2_lt0 y; omega⟩ (y 1)))
          W (constant ⟨2, ![B, N]⟩ .f32 0x00000000#32) (ix2 p c) := by
  rw [dotGeneral_apply, matmul_zero_apply]
  exact Finset.sum_congr rfl fun k _ => rfl

end Cert.LibPlainDot

end
-- ==== Proof.LibDenseLayer.lean ====
/-
  One dense layer and one rectifier over the extended reals, in the kernel's spelling and in the host's.

  A dense layer sends a matrix h [M, K], a weight w [K, N] and a bias b [N] to the matrix whose entry (r, c) is
  ∑ₖ h(r, k) · w(k, c) + b(c); the rectifier takes the larger of an entry and zero. The kernel spells the layer as
  a matrix product accumulated from zero, of operands passed through a change of float format (the identity on
  the extended reals), plus the bias laid out as a row [1, N] and repeated down the rows. The host spells it as
  `dot_general` plus the bias sent to a row [1, N] and from there to every row. Both are the same function of
  (h, w, b), entry by entry: no sum is reordered and no factor is moved, so no entry need be finite.
  Entry (r, c) of a layer depends on row r of h alone, so a block of consecutive rows of the layer of a long matrix
  is the layer of that block of rows.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«134763_j76441827934549_2_alg».proof.Proof.LibPlainDot

noncomputable section

namespace Cert.LibDenseLayer

open Idealize.ShloMosaic Idealize.ShloMosaic.ValueIdx

variable {M K N : Nat}

/-- The dense layer: entry (r, c) is ∑ₖ h(r, k) · w(k, c) + b(c). -/
def affine (h : FVec Ideal ⟨2, ![M, K]⟩ .f32) (w : FVec Ideal ⟨2, ![K, N]⟩ .f32) (b : FVec Ideal ⟨1, ![N]⟩ .f32) :
    FVec Ideal ⟨2, ![M, N]⟩ .f32 :=
  fun i => (∑ k : Fin K, h (ix2 (i 0) k) * w (ix2 k (i 1))) + b (ix1 (i 1))

/-- The rectifier: the larger of an entry and zero (the zero kept as its float word). -/
def relu {s : Shape} (v : FVec Ideal s .f32) : FVec Ideal s .f32 :=
  fun i => max (v i) (Ideal.ofBits .f32 0x00000000#32)

/-- The kernel's layer: a product accumulated from zero plus a bias row repeated down the rows, the row holding the
    bias vector (`hrow`). -/
theorem matmul_bias (wf : DotDims.WF (⟨2, ![M, K]⟩ : Shape) ⟨2, ![K, N]⟩ ⟨2, ![M, N]⟩ [1] [0] [0] [1] [] [])
    (lt : FTy.bits .bf16 < FTy.bits .f32) (hb : (⟨2, ![1, N]⟩ : Shape).Broadcasts ⟨2, ![M, N]⟩)
    (h : FVec Ideal ⟨2, ![M, K]⟩ .f32) (w : FVec Ideal ⟨2, ![K, N]⟩ .f32)
    (row : FVec Ideal ⟨2, ![1, N]⟩ .f32) (b : FVec Ideal ⟨1, ![N]⟩ .f32)
    (hrow : ∀ c : Fin N, row (ix2 (0 : Fin 1) c) = b (ix1 c)) :
    addf (FloatOps.matmul (LibPlainDot.dims wf) none (truncf .bf16 h lt) (truncf .bf16 w lt)
        (constant ⟨2, ![M, N]⟩ .f32 0x00000000#32)) (broadcastTo ⟨2, ![M, N]⟩ row hb) = affine h w b := by
  funext i
  obtain ⟨r, c, rfl⟩ : ∃ (r : Fin M) (c : Fin N), i = ix2 r c := ⟨i 0, i 1, eq_ix2 i⟩
  rw [addf_apply, LibPlainDot.matmul_zero_apply, broadcastTo_1b_ab_apply, hrow]
  rfl

/-- The host's layer: `dot_general` plus the bias vector sent to a row and from the row to every row. -/
theorem dot_bias (wf : DotDims.WF (⟨2, ![M, K]⟩ : Shape) ⟨2, ![K, N]⟩ ⟨2, ![M, N]⟩ [1] [0] [0] [1] [] [])
    (h1 : (⟨1, ![N]⟩ : Shape).BroadcastsInDim ⟨2, ![1, N]⟩ ![1])
    (h2 : (⟨2, ![1, N]⟩ : Shape).BroadcastsInDim ⟨2, ![M, N]⟩ ![0, 1])
    (h : FVec Ideal ⟨2, ![M, K]⟩ .f32) (w : FVec Ideal ⟨2, ![K, N]⟩ .f32) (b : FVec Ideal ⟨1, ![N]⟩ .f32) :
    addf (Host.dotGeneral (LibPlainDot.dims wf) none h w)
        (broadcastInDim ⟨2, ![M, N]⟩ ![0, 1] h2 (broadcastInDim ⟨2, ![1, N]⟩ ![1] h1 b)) = affine h w b := by
  funext i
  obtain ⟨r, c, rfl⟩ : ∃ (r : Fin M) (c : Fin N), i = ix2 r c := ⟨i 0, i 1, eq_ix2 i⟩
  rw [addf_apply]
  show FloatOps.dotGeneral (LibPlainDot.dims wf) none .single h w (ix2 r c) + _ = _
  rw [LibPlainDot.dotGeneral_apply]
  have e2 : broadcastInDim ⟨2, ![M, N]⟩ ![0, 1] h2 (broadcastInDim ⟨2, ![1, N]⟩ ![1] h1 b) (ix2 r c)
      = broadcastInDim ⟨2, ![1, N]⟩ ![1] h1 b (ix2 (0 : Fin 1) c) :=
    broadcastInDim_apply _ h2 _ (ix2 r c) (ix2 (0 : Fin 1) c) (fun a => by
      match a with
      | ⟨0, _⟩ => rfl
      | ⟨1, _⟩ =>
        show c.val = if N = 1 then 0 else c.val
        have := c.isLt
        split <;> omega)
  have e1 : broadcastInDim ⟨2, ![1, N]⟩ ![1] h1 b (ix2 (0 : Fin 1) c) = b (ix1 c) :=
    broadcastInDim_apply _ h1 b (ix2 (0 : Fin 1) c) (ix1 c) (fun a => by
      match a with
      | ⟨0, _⟩ =>
        show c.val = if N = 1 then 0 else c.val
        have := c.isLt
        split <;> omega)
  rw [e2, e1]
  rfl

/-- The kernel's rectifier: the maximum with a scalar zero repeated over the block. -/
theorem max_splat {s : Shape} (v : FVec Ideal s .f32) :
    maximumf v (broadcast s (Scalar.ofBits (F := Ideal) .f32 0x00000000#32)) = relu v := rfl

/-- The host's rectifier: the maximum with a scalar zero constant sent to every entry. -/
theorem max_bcast {s : Shape} (hb : (⟨0, ![]⟩ : Shape).BroadcastsInDim s ![]) (v : FVec Ideal s .f32) :
    maximumf v (broadcastInDim s ![] hb (constant (F := Ideal) ⟨0, ![]⟩ .f32 0x00000000#32)) = relu v := by
  funext i
  rw [maximumf_apply, broadcastInDim_apply _ hb _ i ix0 (fun a => a.elim0)]
  rfl

/-- ROW BLOCKS of a layer: entry (off + p, c) of the layer of a long matrix is entry (p, c) of the layer of the block
    of its rows off … off + B. -/
theorem affine_rows {B off : Nat} (hB : off + B ≤ M)
    (H : FVec Ideal ⟨2, ![M, K]⟩ .f32) (h : FVec Ideal ⟨2, ![B, K]⟩ .f32)
    (w : FVec Ideal ⟨2, ![K, N]⟩ .f32) (b : FVec Ideal ⟨1, ![N]⟩ .f32) (p : Fin B) (c : Fin N)
    (hrows : ∀ k : Fin K, h (ix2 p k) = H (ix2 ⟨off + p.val, by have := p.isLt; omega⟩ k)) :
    affine H w b (ix2 ⟨off + p.val, by have := p.isLt; omega⟩ c) = affine h w b (ix2 p c) := by
  show (∑ k : Fin K, H (ix2 ⟨off + p.val, by have := p.isLt; omega⟩ k) * w (ix2 k c)) + b (ix1 c)
    = (∑ k : Fin K, h (ix2 p k) * w (ix2 k c)) + b (ix1 c)
  exact congrArg (· + b (ix1 c)) (Finset.sum_congr rfl fun k _ => by rw [hrows k])

/-- ROW BLOCKS of a convolution's dense stack: entry (off + p, q) of relu(relu((X + A) · w₁ + b₁) · w₂ + b₂) over the
    long matrices is entry (p, q) of the same stack over the blocks x, a of their rows off … off + B: each layer reads
    row off + p of its operand alone, and that row of X + A is row p of x + a. -/
theorem stack_rows {B off : Nat} (hB : off + B ≤ M)
    (X A : FVec Ideal ⟨2, ![M, K]⟩ .f32) (x a : FVec Ideal ⟨2, ![B, K]⟩ .f32)
    (w1 : FVec Ideal ⟨2, ![K, N]⟩ .f32) (b1 : FVec Ideal ⟨1, ![N]⟩ .f32)
    (w2 : FVec Ideal ⟨2, ![N, N]⟩ .f32) (b2 : FVec Ideal ⟨1, ![N]⟩ .f32) (p : Fin B) (q : Fin N)
    (hx : ∀ k : Fin K, x (ix2 p k) = X (ix2 ⟨off + p.val, by have := p.isLt; omega⟩ k))
    (ha : ∀ k : Fin K, a (ix2 p k) = A (ix2 ⟨off + p.val, by have := p.isLt; omega⟩ k)) :
    relu (affine (relu (affine (addf X A) w1 b1)) w2 b2) (ix2 ⟨off + p.val, by have := p.isLt; omega⟩ q)
      = relu (affine (relu (affine (addf x a) w1 b1)) w2 b2) (ix2 p q) := by
  show max (affine (relu (affine (addf X A) w1 b1)) w2 b2 (ix2 ⟨off + p.val, by have := p.isLt; omega⟩ q)) _
    = max (affine (relu (affine (addf x a) w1 b1)) w2 b2 (ix2 p q)) _
  refine congrArg (max · _) (affine_rows hB _ _ w2 b2 p q fun k => ?_)
  show max (affine (addf x a) w1 b1 (ix2 p k)) _ = max (affine (addf X A) w1 b1 (ix2 ⟨off + p.val, by have := p.isLt; omega⟩ k)) _
  refine congrArg (max · _) (affine_rows hB _ _ w1 b1 p k fun j => ?_).symm
  show x (ix2 p j) + a (ix2 p j) = X (ix2 ⟨off + p.val, by have := p.isLt; omega⟩ j) + A (ix2 ⟨off + p.val, by have := p.isLt; omega⟩ j)
  rw [hx j, ha j]

end Cert.LibDenseLayer

end
-- ==== Proof.KernelMsg.lean ====
/-
  The message array the edge kernel leaves: one dense stack, read block by block.

  The region runs 100 grid points; point t works on edges 3200 t ... 3200 t + 3199. Its body adds the block of gathered
  rows of A, the block of gathered rows of B and the first bias, takes the larger of each entry and zero, multiplies
  with the second weight matrix and adds the second bias: on the block it is the dense layer of the rectified
  hidden values. Entry (e, d) of a dense layer depends on row e of its left factor alone, so the 100 blocks are the
  100 row blocks of ONE dense layer of the whole arrays, and they tile the message array.
-/
import proofs.«134763_j76441827934549_2_alg».proof.Proof.Gen.KernelIdeal.Frame
import proofs.«134763_j76441827934549_2_alg».proof.Proof.LibPlainDot
import proofs.«134763_j76441827934549_2_alg».proof.Proof.LibDenseLayer
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws

noncomputable section

namespace Cert.KernelIdeal.Msg

open Idealize.ShloMosaic Idealize.ShloMosaic.TcCoe Idealize.SL.Sem Idealize.ShloMosaic.ValueIdx
open Cert.KernelIdeal Cert.KernelIdeal.Gen
open Cert.LibDenseLayer (affine relu)
open Idealize.ShloMosaic.Pipeline (Dat)

/-- The hidden values before the rectifier: the two gathered node products added, plus the first bias. -/
def hidden {E : Nat} (A B : (⟨2, ![E, 512]⟩ : Shape).Idx → EReal) (b1 : (⟨1, ![512]⟩ : Shape).Idx → EReal) :
    (⟨2, ![E, 512]⟩ : Shape).Idx → EReal :=
  fun i => (A i + B i) + b1 (ix1 (i 1))

/-- The messages: the second dense layer of the rectified hidden values. -/
def msg {E : Nat} (A B : (⟨2, ![E, 512]⟩ : Shape).Idx → EReal) (b1 : (⟨1, ![512]⟩ : Shape).Idx → EReal)
    (w2 : (⟨2, ![512, 256]⟩ : Shape).Idx → EReal) (b2 : (⟨1, ![256]⟩ : Shape).Idx → EReal) :
    (⟨2, ![E, 256]⟩ : Shape).Idx → EReal :=
  affine (relu (hidden A B b1)) w2 b2

/-- A row block of the messages: entry `y` of the messages of a block of rows is entry `k` of the messages of the long
    arrays when `k` is `y`'s entry (same column) and the block's row `y 0` is row `k 0` of both long arrays. -/
theorem msg_rows {E B : Nat} (A' B' : (⟨2, ![E, 512]⟩ : Shape).Idx → EReal) (a b : (⟨2, ![B, 512]⟩ : Shape).Idx → EReal)
    (b1 : (⟨1, ![512]⟩ : Shape).Idx → EReal) (w2 : (⟨2, ![512, 256]⟩ : Shape).Idx → EReal) (b2 : (⟨1, ![256]⟩ : Shape).Idx → EReal)
    (k : (⟨2, ![E, 256]⟩ : Shape).Idx) (y : (⟨2, ![B, 256]⟩ : Shape).Idx) (h1 : (k 1 : Fin 256) = y 1)
    (ha : ∀ q : Fin 512, a (ix2 (y 0) q) = A' (ix2 (k 0) q)) (hb : ∀ q : Fin 512, b (ix2 (y 0) q) = B' (ix2 (k 0) q)) :
    msg a b b1 w2 b2 y = msg A' B' b1 w2 b2 k := by
  show (∑ q : Fin 512, max ((a (ix2 (y 0) q) + b (ix2 (y 0) q)) + b1 (ix1 q)) (Ideal.ofBits .f32 0x00000000#32) * w2 (ix2 q (y 1))) + b2 (ix1 (y 1))
    = (∑ q : Fin 512, max ((A' (ix2 (k 0) q) + B' (ix2 (k 0) q)) + b1 (ix1 q)) (Ideal.ofBits .f32 0x00000000#32) * w2 (ix2 q (k 1))) + b2 (ix1 (k 1))
  rw [h1]
  simp only [ha, hb]

/-- THE BODY: on its blocks the body computes the messages of the blocks, the two bias rows holding the bias vectors. -/
theorem pay_eq (x0 x1 : Vec Ideal S3200x512 .bf16) (x2 : Vec Ideal S1x512 .f32) (x3 : Vec Ideal S512x256 .bf16) (x4 : Vec Ideal S1x256 .f32)
    (b1 : S512.Idx → EReal) (b2 : S256.Idx → EReal)
    (h1 : ∀ q : Fin 512, x2 (ix2 (0 : Fin 1) q) = b1 (ix1 q)) (h2 : ∀ d : Fin 256, x4 (ix2 (0 : Fin 1) d) = b2 (ix1 d)) :
    k0_pay1 (F := Ideal) x0 x1 x2 x3 x4 = msg (E := 3200) x0 x1 b1 x3 b2 := by
  funext i
  obtain ⟨p, d, rfl⟩ : ∃ (p : Fin 3200) (d : Fin 256), i = ix2 p d := ⟨i 0, i 1, eq_ix2 i⟩
  unfold k0_pay1
  refine congrArg₂ (· + ·) ?_ ?_
  · refine (LibPlainDot.matmul_zero_apply dot_S3200x512_S512x256_S3200x256_1_0_0_1_n_n_wf none _ _ p d).trans ?_
    refine Finset.sum_congr rfl fun q _ => congrArg₂ (· * ·) ?_ ?_
    · show max (((shapeCast S3200x512 x0 shapeCasts_S3200x512_S3200x512) (ix2 p q) + (shapeCast S3200x512 x1 shapeCasts_S3200x512_S3200x512) (ix2 p q))
          + broadcastTo S3200x512 (shapeCast S1x512 x2 shapeCasts_S1x512_S1x512) broadcasts_S1x512_S3200x512 (ix2 p q)) (Ideal.ofBits .f32 0x00000000#32)
        = max ((x0 (ix2 p q) + x1 (ix2 p q)) + b1 (ix1 q)) (Ideal.ofBits .f32 0x00000000#32)
      rw [shapeCast_self, shapeCast_self, shapeCast_self, broadcastTo_1b_ab_apply, h1]
    · exact congrFun (shapeCast_self x3 shapeCasts_S512x256_S512x256) (ix2 q d)
  · show broadcastTo S3200x256 (shapeCast S1x256 x4 shapeCasts_S1x256_S1x256) broadcasts_S1x256_S3200x256 (ix2 p d) = b2 (ix1 d)
    rw [shapeCast_self, broadcastTo_1b_ab_apply, h2]

end Cert.KernelIdeal.Msg

end
-- ==== Proof.KernelArray.lean ====
/-
  From the 100 blocks to the message array.

  Grid point t fetches rows 3200 t ... 3200 t + 3199 of the two gathered arrays and the whole of the two bias rows and of the
  second weight matrix, and writes back rows 3200 t ... 3200 t + 3199 of the message array. What it writes is the messages of
  its blocks, which is that row block of the messages of the whole arrays; edge e is in the block of point e / 3200, so
  the blocks cover the array and it ends holding the messages of the whole arrays.
-/
import proofs.«134763_j76441827934549_2_alg».proof.Proof.KernelMsg

noncomputable section

namespace Cert.KernelIdeal.Msg

open Idealize.ShloMosaic Idealize.ShloMosaic.TcCoe Idealize.SL.Sem Idealize.ShloMosaic.ValueIdx
open Cert.KernelIdeal Cert.KernelIdeal.Gen
open Idealize.ShloMosaic.Pipeline (Dat)

variable (m : (ℓ : Loc nD τ sig) → Buf (Elt Ideal) ℓ)

theorem hz : (![0, 0] : Fin 2 → Nat) = fun _ => 0 := funext fun a => by fin_cases a <;> rfl

/-- The printed index maps, decided over the grid: the two gathered arrays and the message array move one block of rows
    per point, the bias rows and the weight matrix stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Block t of the gathered rows of A is its rows from 3200 t on. -/
theorem blk0 (c : Dev nD) (t : Fin cfg0.N) (y : S3200x512.Idx) (k : S320000x512.Idx)
    (h0 : (k 0).val = 3200 * t.val + (y 0).val) (h1 : (k 1).val = (y 1).val) :
    (iblk m c 0 t : Vec Ideal S3200x512 .bf16) y = (V m c main_v20 : S320000x512.Idx → EReal) k := by
  obtain ⟨e0, e1, -⟩ := idx_facts t
  unfold iblk
  rw [View.read_apply]
  show (V m c main_v20 : S320000x512.Idx → EReal) _ = (V m c main_v20 : S320000x512.Idx → EReal) _
  refine congrArg (V m c main_v20 : S320000x512.Idx → EReal) (funext fun a => Fin.ext ?_)
  match a with
  | ⟨0, _⟩ => show win0_0.index t (0 : Fin 2) * 3200 + 1 * (y 0).val = (k 0).val; rw [e0, h0]; omega
  | ⟨1, _⟩ => show win0_0.index t (1 : Fin 2) * 512 + 1 * (y 1).val = (k 1).val; rw [e1, h1]; omega

/-- Block t of the gathered rows of B is its rows from 3200 t on. -/
theorem blk1 (c : Dev nD) (t : Fin cfg0.N) (y : S3200x512.Idx) (k : S320000x512.Idx)
    (h0 : (k 0).val = 3200 * t.val + (y 0).val) (h1 : (k 1).val = (y 1).val) :
    (iblk m c 1 t : Vec Ideal S3200x512 .bf16) y = (V m c main_v27 : S320000x512.Idx → EReal) k := by
  obtain ⟨-, -, e0, e1, -⟩ := idx_facts t
  unfold iblk
  rw [View.read_apply]
  show (V m c main_v27 : S320000x512.Idx → EReal) _ = (V m c main_v27 : S320000x512.Idx → EReal) _
  refine congrArg (V m c main_v27 : S320000x512.Idx → EReal) (funext fun a => Fin.ext ?_)
  match a with
  | ⟨0, _⟩ => show win0_1.index t (0 : Fin 2) * 3200 + 1 * (y 0).val = (k 0).val; rw [e0, h0]; omega
  | ⟨1, _⟩ => show win0_1.index t (1 : Fin 2) * 512 + 1 * (y 1).val = (k 1).val; rw [e1, h1]; omega

/-- The first bias row is fetched whole at every point. -/
theorem blk2 (c : Dev nD) (t : Fin cfg0.N) (y : S1x512.Idx) :
    (iblk m c 2 t : Vec Ideal S1x512 .f32) y = (V m c main_v29 : S1x512.Idx → EReal) y := by
  obtain ⟨-, -, -, -, e0, e1, -⟩ := idx_facts t
  unfold iblk
  rw [View.read_apply]
  show (V m c main_v29 : S1x512.Idx → EReal) _ = (V m c main_v29 : S1x512.Idx → EReal) _
  refine congrArg (V m c main_v29 : S1x512.Idx → EReal) (funext fun a => Fin.ext ?_)
  match a with
  | ⟨0, _⟩ => show win0_2.index t (0 : Fin 2) * 1 + 1 * (y 0).val = (y 0).val; rw [e0]; omega
  | ⟨1, _⟩ => show win0_2.index t (1 : Fin 2) * 512 + 1 * (y 1).val = (y 1).val; rw [e1]; omega

/-- The second weight matrix is fetched whole at every point. -/
theorem blk3 (c : Dev nD) (t : Fin cfg0.N) (y : S512x256.Idx) :
    (iblk m c 3 t : Vec Ideal S512x256 .bf16) y = (V m c main_v28 : S512x256.Idx → EReal) y := by
  obtain ⟨-, -, -, -, -, -, e0, e1, -⟩ := idx_facts t
  unfold iblk
  rw [View.read_apply]
  show (V m c main_v28 : S512x256.Idx → EReal) _ = (V m c main_v28 : S512x256.Idx → EReal) _
  refine congrArg (V m c main_v28 : S512x256.Idx → EReal) (funext fun a => Fin.ext ?_)
  match a with
  | ⟨0, _⟩ => show win0_3.index t (0 : Fin 2) * 512 + 1 * (y 0).val = (y 0).val; rw [e0]; omega
  | ⟨1, _⟩ => show win0_3.index t (1 : Fin 2) * 256 + 1 * (y 1).val = (y 1).val; rw [e1]; omega

/-- The second bias row is fetched whole at every point. -/
theorem blk4 (c : Dev nD) (t : Fin cfg0.N) (y : S1x256.Idx) :
    (iblk m c 4 t : Vec Ideal S1x256 .f32) y = (V m c main_v30 : S1x256.Idx → EReal) y := by
  obtain ⟨-, -, -, -, -, -, -, -, e0, e1, -⟩ := idx_facts t
  unfold iblk
  rw [View.read_apply]
  show (V m c main_v30 : S1x256.Idx → EReal) _ = (V m c main_v30 : S1x256.Idx → EReal) _
  refine congrArg (V m c main_v30 : S1x256.Idx → EReal) (funext fun a => Fin.ext ?_)
  match a with
  | ⟨0, _⟩ => show win0_4.index t (0 : Fin 2) * 1 + 1 * (y 0).val = (y 0).val; rw [e0]; omega
  | ⟨1, _⟩ => show win0_4.index t (1 : Fin 2) * 256 + 1 * (y 1).val = (y 1).val; rw [e1]; omega

/-- WHAT POINT t WRITES BACK is block t of the messages of the whole arrays (the bias rows holding `b1`, `b2`). -/
theorem flushed_eq (c : Dev nD) (b1 : S512.Idx → EReal) (b2 : S256.Idx → EReal)
    (hb1 : ∀ q : Fin 512, (V m c main_v29 : S1x512.Idx → EReal) (ix2 (0 : Fin 1) q) = b1 (ix1 q))
    (hb2 : ∀ d : Fin 256, (V m c main_v30 : S1x256.Idx → EReal) (ix2 (0 : Fin 1) d) = b2 (ix1 d)) (t : Fin cfg0.N) :
    (dats m 0 c).flushed 5 t = ((cfg0.win 5).blk t).view.read (Elt Ideal)
      (msg (E := 320000) (V m c main_v20) (V m c main_v27) b1 (V m c main_v28) b2) := by
  show (cfg0.win 5).cut (grid0.coords t) ((dats m 0 c).after 5 t) = _
  rw [after0_5]
  unfold out0_5
  rw [View.canon_unit_zero hz]
  simp only [View.ld_unit_zero (S := S3200x512) hz, View.ld_unit_zero (S := S1x512) hz, View.ld_unit_zero (S := S512x256) hz,
    View.ld_unit_zero (S := S1x256) hz]
  have h3 : (iblk m c 3 t : Vec Ideal S512x256 .bf16) = (V m c main_v28 : S512x256.Idx → EReal) := funext fun y => blk3 m c t y
  rw [pay_eq (iblk m c 0 t) (iblk m c 1 t) (iblk m c 2 t) (iblk m c 3 t) (iblk m c 4 t) b1 b2
    (fun q => (blk2 m c t _).trans (hb1 q)) (fun d => (blk4 m c t _).trans (hb2 d)), h3]
  obtain ⟨-, -, -, -, -, -, -, -, -, -, e0, e1⟩ := idx_facts t
  funext j
  show msg (E := 3200) (iblk m c 0 t) (iblk m c 1 t) b1 (V m c main_v28) b2 j
    = msg (E := 320000) (V m c main_v20) (V m c main_v27) b1 (V m c main_v28) b2 (((cfg0.win 5).blk t).view.emb j)
  have k0 : ((((cfg0.win 5).blk t).view.emb j) 0).val = 3200 * t.val + (j 0).val := by
    show win0_5.index t (0 : Fin 2) * 3200 + 1 * (j 0).val = _
    rw [e0]; omega
  have k1 : ((((cfg0.win 5).blk t).view.emb j) 1).val = (j 1).val := by
    show win0_5.index t (1 : Fin 2) * 256 + 1 * (j 1).val = _
    rw [e1]; omega
  exact msg_rows (V m c main_v20) (V m c main_v27) (iblk m c 0 t) (iblk m c 1 t) b1 (V m c main_v28) b2
    (((cfg0.win 5).blk t).view.emb j) j (Fin.ext k1) (fun q => blk0 m c t _ _ k0 rfl) (fun q => blk1 m c t _ _ k0 rfl)

/-- THE MESSAGE ARRAY after the region: the messages of the whole arrays. -/
theorem final (c : Dev nD) (b1 : S512.Idx → EReal) (b2 : S256.Idx → EReal)
    (hb1 : ∀ q : Fin 512, (V m c main_v29 : S1x512.Idx → EReal) (ix2 (0 : Fin 1) q) = b1 (ix1 q))
    (hb2 : ∀ d : Fin 256, (V m c main_v30 : S1x256.Idx → EReal) (ix2 (0 : Fin 1) d) = b2 (ix1 d)) :
    (dats m 0 c).arrAt 5 cfg0.N = msg (E := 320000) (V m c main_v20) (V m c main_v27) b1 (V m c main_v28) b2 :=
  (dats m 0 c).arrAt_eq_of_cover 5 _ (fun t _ => flushed_eq m c b1 b2 hb1 hb2 t) fun i => by
    have hi0 : (i 0).val < 320000 := (i 0).isLt
    have hi1 : (i 1).val < 256 := (i 1).isLt
    have hN : cfg0.N = 100 := N_0
    obtain ⟨t, ht⟩ : ∃ t : Fin cfg0.N, t.val = (i 0).val / 3200 := ⟨⟨(i 0).val / 3200, by rw [hN]; omega⟩, rfl⟩
    obtain ⟨-, -, -, -, -, -, -, -, -, -, e0, e1⟩ := idx_facts t
    refine ⟨t, flush0_5 t, ?_⟩
    show i ∈ ((View.whole main_v31).slice (win0_5.rect t)).set
    rw [View.set_slice_whole, Rect.mem_set_unit]
    intro a
    match a with
    | ⟨0, _⟩ =>
      show win0_5.index t (0 : Fin 2) * 3200 ≤ (i 0).val ∧ (i 0).val < win0_5.index t (0 : Fin 2) * 3200 + 3200
      rw [e0, ht]; omega
    | ⟨1, _⟩ =>
      show win0_5.index t (1 : Fin 2) * 256 ≤ (i 1).val ∧ (i 1).val < win0_5.index t (1 : Fin 2) * 256 + 256
      rw [e1]; omega

end Cert.KernelIdeal.Msg

end
-- ==== Proof.KernelEntry.lean ====
/-
  What the edge kernel's five operand arrays hold when its region is entered.

  Before the region the host computes, once per NODE, the two products A = x . (Wa - Wb) and B = x . Wb (Wa the first
  256 rows of W1, Wb the last 256), gathers A by the edges' target nodes and B by their source nodes, and lays the
  two bias vectors out as rows; the second weight matrix goes in unchanged (a change of float format is the
  identity on the extended reals). A node number read from `edge_index` is normalised the way jnp indexing does it:
  a negative number has the node count 10000 added.
-/
import proofs.«134763_j76441827934549_2_alg».proof.Proof.Gen.KernelIdeal.Frame
import Idealize.ShloMosaic.Lib.StableHlo.Run
import Idealize.ShloMosaic.PureOps.Ideal
import Idealize.ShloMosaic.Lib.ValueIdx

noncomputable section

namespace Cert.KernelIdeal.Entry

open Idealize.ShloMosaic Idealize.ShloMosaic.TcCoe Idealize.SL.Sem Idealize.ShloMosaic.StableHlo
open Cert.KernelIdeal Cert.KernelIdeal.Gen

/-- Row 0 of `edge_index`, the edges' source nodes, as a vector. -/
def srcRaw (ei : IVec S2x320000 32) : IVec S320000 32 :=
  shapeCast S320000 (extractStridedSlice S1x320000 ![0, 0] ei slices_S2x320000_S1x320000_0_0) shapeCasts_S1x320000_S320000

/-- Row 1 of `edge_index`, the edges' target nodes, as a vector. -/
def dstRaw (ei : IVec S2x320000 32) : IVec S320000 32 :=
  shapeCast S320000 (extractStridedSlice S1x320000 ![1, 0] ei slices_S2x320000_S1x320000_1_0) shapeCasts_S1x320000_S320000

/-- jnp's normalisation of an index vector: a negative entry has 10000 added. -/
def wrap (v : IVec S320000 32) : IVec S320000 32 :=
  select (cmpi .slt v (broadcastInDim S320000 ![] bcast_S_S320000 (constantI S_ 32 0#32)))
    (addi v (broadcastInDim S320000 ![] bcast_S_S320000 (constantI S_ 32 10000#32))) v

/-- An index vector as the column a gather or a scatter takes. -/
def col (v : IVec S320000 32) : IVec S320000x1 32 := broadcastInDim S320000x1 ![0] bcast_S320000_S320000x1_0 v

/-- The node-level product with the DIFFERENCE of the two halves of the first weight matrix. -/
def nodeA (x : FVec Ideal S10000x256 .f32) (w1 : FVec Ideal S512x512 .f32) : FVec Ideal S10000x512 .bf16 :=
  truncf .bf16 (Host.dotGeneral dot_S10000x256_S256x512_S10000x512_1_0_0_1_n_n none (truncf .bf16 x bitsLt_bf16_f32)
    (truncf .bf16 (subf (extractStridedSlice S256x512 ![0, 0] w1 slices_S512x512_S256x512_0_0)
      (extractStridedSlice S256x512 ![256, 0] w1 slices_S512x512_S256x512_256_0)) bitsLt_bf16_f32)) bitsLt_bf16_f32

/-- The node-level product with the second half of the first weight matrix. -/
def nodeB (x : FVec Ideal S10000x256 .f32) (w1 : FVec Ideal S512x512 .f32) : FVec Ideal S10000x512 .bf16 :=
  truncf .bf16 (Host.dotGeneral dot_S10000x256_S256x512_S10000x512_1_0_0_1_n_n none (truncf .bf16 x bitsLt_bf16_f32)
    (truncf .bf16 (extractStridedSlice S256x512 ![256, 0] w1 slices_S512x512_S256x512_256_0) bitsLt_bf16_f32)) bitsLt_bf16_f32

variable (m : (ℓ : Loc nD τ sig) → Buf (Elt Ideal) ℓ)

set_option maxRecDepth 8192 in
set_option maxHeartbeats 2000000 in
/-- Operand 0: the rows of A at the edges' target nodes. -/
theorem V_v20 (c : Dev nD) : (V m c main_v20 : S320000x512.Idx → EReal)
    = Host.gather gather_S10000x512_S320000x1_S320000x512_1_0_n_n_0_1_1512
        (nodeA (m ((c : Thread nD τ).loc main_arg0)) (m ((c : Thread nD τ).loc main_arg4)))
        (col (wrap (dstRaw (m ((c : Thread nD τ).loc main_arg2))))) := by
  show StableHlo.after hostOps0 (fun b => m (c, b)) (Proc.devRef .tc main_v20) = _
  after_results_simp
  rfl

set_option maxRecDepth 8192 in
set_option maxHeartbeats 2000000 in
/-- Operand 1: the rows of B at the edges' source nodes. -/
theorem V_v27 (c : Dev nD) : (V m c main_v27 : S320000x512.Idx → EReal)
    = Host.gather gather_S10000x512_S320000x1_S320000x512_1_0_n_n_0_1_1512
        (nodeB (m ((c : Thread nD τ).loc main_arg0)) (m ((c : Thread nD τ).loc main_arg4)))
        (col (wrap (srcRaw (m ((c : Thread nD τ).loc main_arg2))))) := by
  show StableHlo.after hostOps0 (fun b => m (c, b)) (Proc.devRef .tc main_v27) = _
  after_results_simp
  rfl

set_option maxRecDepth 8192 in
set_option maxHeartbeats 2000000 in
/-- Operand 2: the first bias vector as a row. -/
theorem V_v29 (c : Dev nD) : (V m c main_v29 : S1x512.Idx → EReal)
    = shapeCast S1x512 (m ((c : Thread nD τ).loc main_arg5) : S512.Idx → EReal) shapeCasts_S512_S1x512 := by
  show StableHlo.after hostOps0 (fun b => m (c, b)) (Proc.devRef .tc main_v29) = _
  after_results_simp
  rfl

set_option maxRecDepth 8192 in
set_option maxHeartbeats 2000000 in
/-- Operand 3: the second weight matrix. -/
theorem V_v28 (c : Dev nD) : (V m c main_v28 : S512x256.Idx → EReal) = (m ((c : Thread nD τ).loc main_arg6) : S512x256.Idx → EReal) := by
  show StableHlo.after hostOps0 (fun b => m (c, b)) (Proc.devRef .tc main_v28) = _
  after_results_simp
  rfl

set_option maxRecDepth 8192 in
set_option maxHeartbeats 2000000 in
/-- Operand 4: the second bias vector as a row. -/
theorem V_v30 (c : Dev nD) : (V m c main_v30 : S1x256.Idx → EReal)
    = shapeCast S1x256 (m ((c : Thread nD τ).loc main_arg7) : S256.Idx → EReal) shapeCasts_S256_S1x256 := by
  show StableHlo.after hostOps0 (fun b => m (c, b)) (Proc.devRef .tc main_v30) = _
  after_results_simp
  rfl

end Cert.KernelIdeal.Entry

end
-- ==== Proof.KernelTail.lean ====
/-
  After the region: the two scatter-add poolings.

  The messages are summed into their target nodes (a scatter-add by the raw target numbers: an edge whose number is not
  a node's is dropped), each node's sum is multiplied by the node's energy (column 0 of p), and the products are summed
  into the 16 graphs by the batch vector. `tail` is that function of the message array; the reference ends with the same.
-/
import proofs.«134763_j76441827934549_2_alg».proof.Proof.KernelEntry
import Idealize.ShloMosaic.Lib.Pipeline.FrameSuffix

noncomputable section

namespace Cert.KernelIdeal.Entry

open Idealize.ShloMosaic Idealize.ShloMosaic.TcCoe Idealize.SL.Sem Idealize.ShloMosaic.StableHlo
open Cert.KernelIdeal Cert.KernelIdeal.Gen

/-- The pooling tail, as a function of the energies' array `p`, the raw target numbers, the batch vector and the messages. -/
def tail (p : FVec Ideal S10000x4 .f32) (dst : IVec S320000 32) (batch : IVec S10000 32) (X : FVec Ideal S320000x256 .f32) :
    FVec Ideal S16x256 .f32 :=
  Host.scatterAdd scatter_S16x256_S10000x1_S10000x256_1_0_0_1
    (broadcastInDim S16x256 ![] bcast_S_S16x256 (constant (F := Ideal) S_ .f32 0x00000000#32))
    (broadcastInDim S10000x1 ![0] bcast_S10000_S10000x1_0 batch)
    (mulf (broadcastInDim S10000x256 ![0, 1] bcast_S10000x1_S10000x256_0_1
        (extractStridedSlice S10000x1 ![0, 0] p slices_S10000x4_S10000x1_0_0))
      (Host.scatterAdd scatter_S10000x256_S320000x1_S320000x256_1_0_0_1
        (broadcastInDim S10000x256 ![] bcast_S_S10000x256 (constant (F := Ideal) S_ .f32 0x00000000#32))
        (broadcastInDim S320000x1 ![0] bcast_S320000_S320000x1_0 dst) X))

variable (m : (ℓ : Loc nD τ sig) → Buf (Elt Ideal) ℓ)

set_option maxRecDepth 8192 in
set_option maxHeartbeats 2000000 in
/-- The raw target numbers, as the region finds them. -/
theorem V_v3 (c : Dev nD) : (V m c main_v3 : IVec S320000 32) = dstRaw (m ((c : Thread nD τ).loc main_arg2)) := by
  show StableHlo.after hostOps0 (fun b => m (c, b)) (Proc.devRef .tc main_v3) = _
  after_results_simp
  rfl

set_option maxRecDepth 8192 in
set_option maxHeartbeats 2000000 in
/-- THE RESULT after the host lines that follow the region: the tail of the message array the region left. -/
theorem tail_eq (c : Dev nD) :
    (Pipeline.afterTail₀ cfgs (dats m) 0 (V0 m) [hostOps1] c main_v40 : S16x256.Idx → EReal)
      = tail (m ((c : Thread nD τ).loc main_arg1)) (dstRaw (m ((c : Thread nD τ).loc main_arg2)))
          (m ((c : Thread nD τ).loc main_arg3)) ((dats m 0 c).arrAt 5 cfg0.N) := by
  have e31 : Pipeline.withArrays (cfgs 0).spec c (V0 m c) (fun w => (dats m 0 c).arrAt w (cfgs 0).N) (Proc.devRef .tc main_v31)
      = (dats m 0 c).arrAt 5 cfg0.N :=
    Pipeline.withArrays_arr spec0 launch0.win.arr_inj c _ _ 5
  have e3 : Pipeline.withArrays (cfgs 0).spec c (V0 m c) (fun w => (dats m 0 c).arrAt w (cfgs 0).N) (Proc.devRef .tc main_v3)
      = dstRaw (m ((c : Thread nD τ).loc main_arg2)) :=
    (Pipeline.withArrays_of_ne _ c (V0 m c) _ main_v3 (by exact (by decide : ∀ w, Pipeline.arrRef spec0 w ≠ main_v3))).trans (V_v3 m c)
  have e1 : Pipeline.withArrays (cfgs 0).spec c (V0 m c) (fun w => (dats m 0 c).arrAt w (cfgs 0).N) (Proc.devRef .tc main_arg1)
      = m ((c : Thread nD τ).loc main_arg1) :=
    (Pipeline.withArrays_of_ne _ c (V0 m c) _ main_arg1 (by exact (by decide : ∀ w, Pipeline.arrRef spec0 w ≠ main_arg1))).trans (V_main_arg1 m c)
  have ea3 : Pipeline.withArrays (cfgs 0).spec c (V0 m c) (fun w => (dats m 0 c).arrAt w (cfgs 0).N) (Proc.devRef .tc main_arg3)
      = m ((c : Thread nD τ).loc main_arg3) :=
    (Pipeline.withArrays_of_ne _ c (V0 m c) _ main_arg3 (by exact (by decide : ∀ w, Pipeline.arrRef spec0 w ≠ main_arg3))).trans (V_main_arg3 m c)
  unfold Pipeline.afterTail₀
  show StableHlo.after hostOps1 _ (Proc.devRef .tc main_v40) = _
  after_results
  rw [e31, e3, e1, ea3]
  rfl

end Cert.KernelIdeal.Entry

end
-- ==== Proof.KernelRun.lean ====
/-
  The edge kernel's program, run: its result as one function of its arguments.

  Every weakly fair execution terminates with the result at the pooling tail of the messages — the dense stack of the
  gathered node products, the biases and the second weight matrix — and the arguments unchanged.
-/
import proofs.«134763_j76441827934549_2_alg».proof.Proof.KernelArray
import proofs.«134763_j76441827934549_2_alg».proof.Proof.KernelTail

noncomputable section

namespace Cert.KernelIdeal.Whole

open Idealize.ShloMosaic Idealize.ShloMosaic.TcCoe Idealize.SL.Sem Idealize.ShloMosaic.ValueIdx
open Cert.KernelIdeal Cert.KernelIdeal.Gen Cert.KernelIdeal.Entry
open Cert.KernelIdeal.Msg (msg)

variable (m : (ℓ : Loc nD τ sig) → Buf (Elt Ideal) ℓ) (ρ : Dev nD → PrngReg)

/-- The first bias row holds the first bias vector. -/
theorem row1 (c : Dev nD) (q : Fin 512) :
    (V m c main_v29 : S1x512.Idx → EReal) (ix2 (0 : Fin 1) q) = (m ((c : Thread nD τ).loc main_arg5) : S512.Idx → EReal) (ix1 q) := by
  rw [V_v29]
  exact shapeCast_a_1a_apply _ _ 0 q

/-- The second bias row holds the second bias vector. -/
theorem row2 (c : Dev nD) (d : Fin 256) :
    (V m c main_v30 : S1x256.Idx → EReal) (ix2 (0 : Fin 1) d) = (m ((c : Thread nD τ).loc main_arg7) : S256.Idx → EReal) (ix1 d) := by
  rw [V_v30]
  exact shapeCast_a_1a_apply _ _ 0 d

/-- The result buffer after the whole program, as a function of the arguments. -/
def result (c : Dev nD) : S16x256.Idx → EReal :=
  tail (m ((c : Thread nD τ).loc main_arg1)) (dstRaw (m ((c : Thread nD τ).loc main_arg2))) (m ((c : Thread nD τ).loc main_arg3))
    (msg (E := 320000)
      (Host.gather gather_S10000x512_S320000x1_S320000x512_1_0_n_n_0_1_1512
        (nodeA (m ((c : Thread nD τ).loc main_arg0)) (m ((c : Thread nD τ).loc main_arg4)))
        (col (wrap (dstRaw (m ((c : Thread nD τ).loc main_arg2))))))
      (Host.gather gather_S10000x512_S320000x1_S320000x512_1_0_n_n_0_1_1512
        (nodeB (m ((c : Thread nD τ).loc main_arg0)) (m ((c : Thread nD τ).loc main_arg4)))
        (col (wrap (srcRaw (m ((c : Thread nD τ).loc main_arg2))))))
      (m ((c : Thread nD τ).loc main_arg5)) (m ((c : Thread nD τ).loc main_arg6)) (m ((c : Thread nD τ).loc main_arg7)))

/-- What the host lines after the region leave in the result buffer. -/
theorem result_eq (c : Dev nD) :
    (Pipeline.afterTail₀ cfgs (dats m) 0 (V0 m) [hostOps1] c main_v40 : S16x256.Idx → EReal) = result m c := by
  rw [tail_eq, Cert.KernelIdeal.Msg.final m c (m ((c : Thread nD τ).loc main_arg5)) (m ((c : Thread nD τ).loc main_arg7)) (row1 m c) (row2 m c),
    V_v20, V_v27, V_v28]
  rfl

/-- THE RUN, READ: the result at `result`, the arguments unchanged. -/
theorem run : θ_run defs (onTc (τ := τ) (main (F := Ideal))) ⟨m, fun _ => 0, ρ⟩ (fun r => ∀ c : Dev nD,
      r.2.mem ((c.tc : Thread nD τ).loc main_v40) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_v40 (Pipeline.mem_restRefs_of main_v40 (by decide) (by decide))).trans (result_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c))⟩)
    (run_main m ρ)

end Cert.KernelIdeal.Whole

end
-- ==== Proof.LibRowGatherScatter.lean ====
/-
  Row gather and row scatter-add of a 2-D array, read at an index.

  For an array `x : [N, D]` and a column of integer row numbers `idx : [E, 1]`:
  * the row gather `x[idx]` (result `[E, D]`) has element `(e, k)` equal to `x` at row `idx[e, 0]` — read as a signed
    integer and clamped into `[0, N − 1]` — and column `k`;
  * the row scatter-add of updates `upd : [E, D]` into `x` has element `(n, k)` equal to `x (n, k)` plus the sum of
    `upd (e, k)` over those `e` whose row number `idx[e, 0]`, read as a signed integer and NOT clamped, is `n`.
  The row function and the set of contributing `e` do not depend on the width `D`.
-/
import Idealize.ShloMosaic.PureOps.Ideal
import Idealize.ShloMosaic.Lib.ValueIdx

noncomputable section

open scoped BigOperators

namespace Cert.Lib.RowGatherScatter

open Idealize.ShloMosaic Idealize.ShloMosaic.ValueIdx

/-! ## The dimension numbers -/

/-- The gather's dimension numbers for an operand `[N, D]`, start indices `[E, 1]` and result `[E, D]`: result axis 1
    is the one offset axis (it runs over the operand's axis 1, whole: slice sizes `[1, D]`), operand axis 0 is collapsed
    and is the one the start index names; the index vector lies along axis 1 of the start indices. -/
abbrev rowGatherDims (N D E : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The scatter's dimension numbers for an operand `[N, D]`, scatter indices `[E, 1]` and updates `[E, D]`: update
    axis 1 is the one window axis (it goes to the operand's axis 1), operand axis 0 is inserted and is the one the
    scatter index names; the index vector lies along axis 1 of the scatter indices. -/
abbrev rowScatterDims (N D E : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- The row a start index selects: `idx[e, 0]` read as a signed integer and clamped into `[0, N − 1]`. -/
def rowOf {E w : Nat} (N : Nat) (hN : 0 < N) (idx : IVec ⟨2, ![E, 1]⟩ w) (e : Fin E) : Fin N :=
  ⟨min (idx (ix2 e (0 : Fin 1))).toInt.toNat (N - 1), by omega⟩

/-! ## The row gather read at an index -/

section Gather
variable {α : Type}

/-- The start-indices index the gather reads for result index `(e, k)`: `[e, 0]`, whatever `k` is. -/
theorem gather_siIdx {N D E : Nat}
    (wf : GatherDims.WF ⟨2, ![N, D]⟩ ⟨2, ![E, 1]⟩ ⟨2, ![E, D]⟩ [1] [0] [] [0] [] 1 ![1, D])
    (e : Fin E) (k : Fin D) (c : Fin (rowGatherDims N D E wf).startIndexMap.length) :
    (rowGatherDims N D E wf).siIdx (ix2 e k) c = ix2 e (0 : Fin 1) := by
  funext b; refine Fin.ext ?_
  match b with
  | ⟨0, _⟩ => rfl
  | ⟨1, _⟩ =>
    have := c.isLt
    show c.val = 0
    simpa using this

/-- THE ROW GATHER READ AT `(e, k)`: the operand at row `idx[e, 0]`, read signed and clamped into `[0, N − 1]`, and
    column `k`. -/
theorem gather_rows_apply {N D E w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (k : Fin D) :
    Host.gather (rowGatherDims N D E wf) x idx (ix2 e k) = x (ix2 (rowOf N hN idx e) k) := by
  unfold Host.gather
  congr 1
  funext a; refine Fin.ext ?_
  match a with
  | ⟨0, _⟩ =>
    -- axis 0 is collapsed and named by the start index: the clamped start, nothing added
    show (rowGatherDims N D E wf).start (ix2 e k) idx 0 + (rowGatherDims N D E wf).batchCoord (ix2 e k) 0
      + (rowGatherDims N D E wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N D E wf).startIndexMap from List.mem_singleton.mpr rfl)]
    rw [gather_siIdx]
    rfl
  | ⟨1, _⟩ =>
    -- axis 1 is the offset axis, not named by the start index: start 0, the result's own coordinate on it
    show (rowGatherDims N D E wf).start (ix2 e k) idx 1 + (rowGatherDims N D E wf).batchCoord (ix2 e k) 1
      + (rowGatherDims N D E wf).offCoord (ix2 e k) 1 = k.val
    have h10 : (1 : Fin 2) ∉ ([0] : List (Fin 2)) := by decide
    rw [GatherDims.batchCoord_eq_zero _ _ _ List.not_mem_nil]
    have hs : (rowGatherDims N D E wf).start (ix2 e k) idx 1 = 0 := by
      unfold GatherDims.start
      rw [dif_neg h10]
    rw [hs]
    simp only [Nat.add_zero, Nat.zero_add]
    unfold GatherDims.offCoord
    rw [dif_pos ((GatherDims.mem_sKept _ _).mpr ⟨h10, List.not_mem_nil⟩)]
    rfl

end Gather

/-! ## The row scatter-add read at an index -/

section Scatter

/-- An update lands at operand index `i` exactly when, on every axis, its start (read signed) plus its window
    coordinate is `i`'s coordinate: the in-range condition is then `i`'s own. -/
theorem resultIdx?_eq_some_iff_forall {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  constructor
  · intro h
    split at h
    · rename_i hh
      intro a
      have ha := congrArg Fin.val (congrFun (Option.some.inj h) a)
      have := hh a
      simp only at ha
      omega
    · exact absurd h (by simp)
  · intro h
    have hh : ∀ a, 0 ≤ d.start j idx a + d.window j a ∧ d.start j idx a + d.window j a < s.size a := by
      intro a
      have := h a
      have := (i a).isLt
      omega
    rw [dif_pos hh]
    congr 1
    funext a; refine Fin.ext ?_
    have := h a
    simp only
    omega

variable {N D E w : Nat} (wf : ScatterDims.WF ⟨2, ![N, D]⟩ ⟨2, ![E, 1]⟩ ⟨2, ![E, D]⟩ [1] [0] [0] 1)

/-- The scatter-indices index the scatter reads for update index `(e, k)`: `[e, 0]`, whatever `k` is. -/
theorem scatter_siIdx (e : Fin E) (k : Fin D) (c : Fin (rowScatterDims N D E wf).scatterDimsToOperandDims.length) :
    (rowScatterDims N D E wf).siIdx (ix2 e k) c = ix2 e (0 : Fin 1) := by
  funext b; refine Fin.ext ?_
  match b with
  | ⟨0, _⟩ => rfl
  | ⟨1, _⟩ =>
    have := c.isLt
    show c.val = 0
    simpa using this

/-- On axis 0 the start is the scatter index `idx[e, 0]`, read signed and not clamped. -/
theorem scatter_start0 (idx : IVec ⟨2, ![E, 1]⟩ w) (e : Fin E) (k : Fin D) :
    (rowScatterDims N D E wf).start (ix2 e k) idx 0 = (idx (ix2 e (0 : Fin 1))).toInt := by
  unfold ScatterDims.start
  rw [dif_pos (show (0 : Fin 2) ∈ (rowScatterDims N D E wf).scatterDimsToOperandDims from List.mem_singleton.mpr rfl)]
  rw [scatter_siIdx]

/-- On axis 1, which the scatter index does not name, the start is 0. -/
theorem scatter_start1 (idx : IVec ⟨2, ![E, 1]⟩ w) (e : Fin E) (k : Fin D) :
    (rowScatterDims N D E wf).start (ix2 e k) idx 1 = 0 := by
  unfold ScatterDims.start
  rw [dif_neg (show (1 : Fin 2) ∉ ([0] : List (Fin 2)) by decide)]

/-- Axis 0 is inserted: no window coordinate. -/
theorem scatter_window0 (e : Fin E) (k : Fin D) : (rowScatterDims N D E wf).window (ix2 e k) 0 = 0 := by
  unfold ScatterDims.window
  rw [dif_neg]
  simp [ScatterDims.sKept, Shape.kept]

/-- Axis 1 takes the update's own coordinate on its window axis. -/
theorem scatter_window1 (e : Fin E) (k : Fin D) : (rowScatterDims N D E wf).window (ix2 e k) 1 = k.val := by
  unfold ScatterDims.window
  rw [dif_pos (by simp [ScatterDims.sKept, Shape.kept])]
  rfl

/-- WHERE AN UPDATE LANDS: update `(e, k')` lands on operand element `(n, k)` exactly when its scatter index `idx[e, 0]`,
    read as a signed integer, is `n`, and `k' = k`. -/
theorem resultIdx?_eq_some_iff (idx : IVec ⟨2, ![E, 1]⟩ w) (e : Fin E) (k' : Fin D) (n : Fin N) (k : Fin D) :
    (rowScatterDims N D E wf).resultIdx? (ix2 e k') idx = some (ix2 n k)
      ↔ (idx (ix2 e (0 : Fin 1))).toInt = (n.val : Int) ∧ k' = k := by
  rw [resultIdx?_eq_some_iff_forall]
  have h2 : ∀ P : Fin 2 → Prop, (∀ a, P a) ↔ P 0 ∧ P 1 := fun P => Fin.forall_fin_two
  refine (h2 _).trans ?_
  rw [scatter_start0, scatter_start1, scatter_window0, scatter_window1]
  show (idx (ix2 e (0 : Fin 1))).toInt + ((0 : Nat) : Int) = (n.val : Int) ∧ (0 : Int) + (k'.val : Int) = (k.val : Int) ↔ _
  constructor
  · rintro ⟨h0, h1⟩
    exact ⟨by omega, Fin.ext (by omega)⟩
  · rintro ⟨h0, rfl⟩
    exact ⟨by omega, by omega⟩

/-- THE ROW SCATTER-ADD READ AT `(n, k)`: the operand's element plus the sum of the updates `(e, k)` over the `e` whose
    scatter index `idx[e, 0]`, read as a signed integer and not clamped, is `n`. -/
theorem scatterAdd_rows_apply (x : (⟨2, ![N, D]⟩ : Shape).Idx → EReal) (idx : IVec ⟨2, ![E, 1]⟩ w)
    (upd : (⟨2, ![E, D]⟩ : Shape).Idx → EReal) (n : Fin N) (k : Fin D) :
    Ideal.hostScatterAdd (rowScatterDims N D E wf) x idx upd (ix2 n k)
      = x (ix2 n k) + ∑ e ∈ Finset.univ.filter (fun e : Fin E => (idx (ix2 e (0 : Fin 1))).toInt = (n.val : Int)),
          upd (ix2 e k) := by
  unfold Ideal.hostScatterAdd
  congr 1
  rw [Finset.sum_filter, sum_idx2, Finset.sum_filter]
  refine Finset.sum_congr rfl fun e _ => ?_
  simp only [resultIdx?_eq_some_iff]
  by_cases hq : (idx (ix2 e (0 : Fin 1))).toInt = (n.val : Int)
  · simp only [hq, true_and, if_true]
    rw [Finset.sum_ite_eq']
    simp
  · simp [hq]

end Scatter

end Cert.Lib.RowGatherScatter

end
-- ==== Proof.LibSplitLayer.lean ====
/-
  The first linear layer of an edge convolution, split at node granularity.

  An edge from node s to node t carries the feature vector c = [x_t, x_s - x_t] (the target's features, then the
  difference), of length n + n, and the layer multiplies it with a weight matrix W of n + n rows. Writing Wa for
  the first n rows of W and Wb for the last n,
      c . W = x_t . Wa + (x_s - x_t) . Wb = x_t . (Wa - Wb) + x_s . Wb,
  so the two products on the right can be taken once per NODE and only added per edge. The second equality moves
  a factor across a difference, which is valid for real numbers and not for infinite ones (inf - inf), so it is
  stated for families of extended reals every entry of which is a real number.

  GENERAL LEMMAS: `coe_sum` (the coercion of the reals into the extended reals commutes with finite sums) and
  `split_entry` — for any n and K, and any two embeddings `lo`, `hi` of the n positions into the K positions over which
  a sum over K splits: a . (w_lo - w_hi) + s . w_hi = c . w for real families with c = [a, s - a]. `lo`, `hi` and
  `sum_halves` below instantiate the embeddings for 256 + 256 = 512. Imports only Mathlib.
-/
import Mathlib

noncomputable section

open scoped BigOperators

namespace Cert.EdgeConv

/-- The coercion of the reals into the extended reals commutes with finite sums. -/
theorem coe_sum {ι : Type} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- Row `j` of the first half of the 512 rows. -/
def lo (j : Fin 256) : Fin 512 := ⟨j.val, by omega⟩

/-- Row `j` of the second half. -/
def hi (j : Fin 256) : Fin 512 := ⟨256 + j.val, by omega⟩

/-- A sum over the 512 rows is the sum over the first half plus the sum over the second. -/
theorem sum_halves {M : Type} [AddCommMonoid M] (f : Fin 512 → M) :
    ∑ j' : Fin 512, f j' = (∑ j : Fin 256, f (lo j)) + ∑ j : Fin 256, f (hi j) :=
  Fin.sum_univ_add (a := 256) (b := 256) f

/-- THE SPLIT of one entry of the layer: for a target row `a`, a source row `s` and a weight column `w` of real
    numbers, and the edge's feature row `c = [a, s - a]` (`lo`, `hi` the positions of the two halves in a row),
    `a . (w_first - w_last) + s . w_last = c . w`. -/
theorem split_entry {n K : Nat} (lo hi : Fin n → Fin K)
    (hsum : ∀ f : Fin K → EReal, ∑ j', f j' = (∑ j, f (lo j)) + ∑ j, f (hi j))
    (a s : Fin n → EReal) (w c : Fin K → EReal)
    (ha : ∀ j, ∃ r : ℝ, a j = r) (hs : ∀ j, ∃ r : ℝ, s j = r) (hw : ∀ j, ∃ r : ℝ, w j = r)
    (hl : ∀ j, c (lo j) = a j) (hr : ∀ j, c (hi j) = s j - a j) :
    (∑ j, a j * (w (lo j) - w (hi j))) + ∑ j, s j * w (hi j) = ∑ j', c j' * w j' := by
  choose ar har using ha
  choose sr hsr using hs
  choose wr hwr using hw
  rw [hsum]
  simp only [hl, hr, har, hsr, hwr]
  simp only [← EReal.coe_sub, ← EReal.coe_mul, ← coe_sum, ← EReal.coe_add]
  congr 1
  rw [← Finset.sum_add_distrib, ← Finset.sum_add_distrib]
  exact Finset.sum_congr rfl fun j _ => by ring

end Cert.EdgeConv

end
-- ==== Proof.KernelNode.lean ====
/-
  The two node-level products and their gathered rows, read at an entry.

  A(n, k) = sum over j < 256 of x(n, j) . (W1(j, k) - W1(256 + j, k)) and B(n, k) = sum over j < 256 of x(n, j) . W1(256 + j, k):
  the host's two products against the difference of the halves of W1 and against its second half (a change of float
  format is the identity on the extended reals). The gathered arrays read, at edge e, the row of the edge's node:
  its number as a signed integer, clamped into [0, 9999].
-/
import proofs.«134763_j76441827934549_2_alg».proof.Proof.KernelEntry
import proofs.«134763_j76441827934549_2_alg».proof.Proof.LibPlainDot
import proofs.«134763_j76441827934549_2_alg».proof.Proof.LibRowGatherScatter
import proofs.«134763_j76441827934549_2_alg».proof.Proof.LibSplitLayer
import Idealize.ShloMosaic.Lib.Pipeline.Value

noncomputable section

namespace Cert.KernelIdeal.Entry

open Idealize.ShloMosaic Idealize.ShloMosaic.ValueIdx
open Cert.KernelIdeal Cert.KernelIdeal.Gen
open Cert.EdgeConv (lo hi)
open Cert.Lib.RowGatherScatter (rowOf)

/-- The first half of W1, read at an entry. -/
theorem w1a_apply (w1 : FVec Ideal S512x512 .f32) (j : Fin 256) (k : Fin 512) :
    extractStridedSlice S256x512 ![0, 0] w1 slices_S512x512_S256x512_0_0 (ix2 j k) = w1 (ix2 (lo j) k) :=
  extractStridedSlice_apply ![0, 0] w1 slices_S512x512_S256x512_0_0 (ix2 j k) (ix2 (lo j) k) (fun a => by
    match a with
    | ⟨0, _⟩ => show j.val = 0 + j.val; omega
    | ⟨1, _⟩ => show k.val = 0 + k.val; omega)

/-- The second half of W1, read at an entry. -/
theorem w1b_apply (w1 : FVec Ideal S512x512 .f32) (j : Fin 256) (k : Fin 512) :
    extractStridedSlice S256x512 ![256, 0] w1 slices_S512x512_S256x512_256_0 (ix2 j k) = w1 (ix2 (hi j) k) :=
  extractStridedSlice_apply ![256, 0] w1 slices_S512x512_S256x512_256_0 (ix2 j k) (ix2 (hi j) k) (fun a => by
    match a with
    | ⟨0, _⟩ => show 256 + j.val = 256 + j.val; rfl
    | ⟨1, _⟩ => show k.val = 0 + k.val; omega)

/-- A at an entry. -/
theorem nodeA_apply (x : FVec Ideal S10000x256 .f32) (w1 : FVec Ideal S512x512 .f32) (n : Fin 10000) (k : Fin 512) :
    nodeA x w1 (ix2 n k) = ∑ j : Fin 256, x (ix2 n j) * (w1 (ix2 (lo j) k) - w1 (ix2 (hi j) k)) := by
  unfold nodeA
  refine (LibPlainDot.dotGeneral_apply dot_S10000x256_S256x512_S10000x512_1_0_0_1_n_n_wf none .single _ _ n k).trans ?_
  refine Finset.sum_congr rfl fun j _ => congrArg₂ (· * ·) rfl ?_
  show extractStridedSlice S256x512 ![0, 0] w1 slices_S512x512_S256x512_0_0 (ix2 j k)
      - extractStridedSlice S256x512 ![256, 0] w1 slices_S512x512_S256x512_256_0 (ix2 j k) = _
  rw [w1a_apply, w1b_apply]

/-- B at an entry. -/
theorem nodeB_apply (x : FVec Ideal S10000x256 .f32) (w1 : FVec Ideal S512x512 .f32) (n : Fin 10000) (k : Fin 512) :
    nodeB x w1 (ix2 n k) = ∑ j : Fin 256, x (ix2 n j) * w1 (ix2 (hi j) k) := by
  unfold nodeB
  refine (LibPlainDot.dotGeneral_apply dot_S10000x256_S256x512_S10000x512_1_0_0_1_n_n_wf none .single _ _ n k).trans ?_
  refine Finset.sum_congr rfl fun j _ => congrArg₂ (· * ·) rfl ?_
  exact w1b_apply w1 j k

/-- A row gather of a 512-wide node array at edge e, column k. -/
theorem gather512_apply (a : FVec Ideal S10000x512 .bf16) (idx : IVec S320000x1 32) (e : Fin 320000) (k : Fin 512) :
    Host.gather gather_S10000x512_S320000x1_S320000x512_1_0_n_n_0_1_1512 a idx (ix2 e k)
      = a (ix2 (rowOf 10000 (by decide) idx e) k) :=
  Cert.Lib.RowGatherScatter.gather_rows_apply (N := 10000) (D := 512) (E := 320000) (by decide)
    gather_S10000x512_S320000x1_S320000x512_1_0_n_n_0_1_1512_wf a idx e k

end Cert.KernelIdeal.Entry

end
-- ==== Proof.LibConcatPair.lean ====
/-
  GENERAL LEMMAS: two matrices joined side by side, read at an entry.

  The concatenation along axis 1 of an [n, a] matrix A and an [n, b] matrix B into an [n, c] matrix (c = a + b, as the
  concatenation's own evidence says) reads, at (k, j'), A at (k, j) when j' = j < a, and B at (k, q) when j' = a + q.
  For every n, a, b, c and element type; for tpu.concatenate and stablehlo.concatenate alike (one function).
-/
import Idealize.ShloMosaic.Lib.Pipeline.Value
import Idealize.ShloMosaic.Lib.ValueIdx

noncomputable section

namespace Cert.LibConcatPair

open Idealize.ShloMosaic Idealize.ShloMosaic.ValueIdx

variable {α : Type} {n a b c : Nat}

/-- A column of the left piece. -/
theorem left (A : (⟨2, ![n, a]⟩ : Shape).Idx → α) (B : (⟨2, ![n, b]⟩ : Shape).Idx → α)
    (h : Shape.Concatenates [(⟨2, ![n, a]⟩ : Shape), ⟨2, ![n, b]⟩] ⟨2, ![n, c]⟩ 1)
    (k : Fin n) (j : Fin a) (j' : Fin c) (hj : j'.val = j.val) :
    concatenate (⟨2, ![n, c]⟩ : Shape) 1 [⟨⟨2, ![n, a]⟩, A⟩, ⟨⟨2, ![n, b]⟩, B⟩] h (ix2 k j') = A (ix2 k j) :=
  concatenate_pair_apply_left 1 A B h (ix2 k j') rfl (ix2 k j) (fun d => by
    match d with
    | ⟨0, _⟩ => rfl
    | ⟨1, _⟩ => exact hj.symm)

/-- A column of the right piece. -/
theorem right (A : (⟨2, ![n, a]⟩ : Shape).Idx → α) (B : (⟨2, ![n, b]⟩ : Shape).Idx → α)
    (h : Shape.Concatenates [(⟨2, ![n, a]⟩ : Shape), ⟨2, ![n, b]⟩] ⟨2, ![n, c]⟩ 1)
    (k : Fin n) (q : Fin b) (j' : Fin c) (hj : j'.val = a + q.val) :
    concatenate (⟨2, ![n, c]⟩ : Shape) 1 [⟨⟨2, ![n, a]⟩, A⟩, ⟨⟨2, ![n, b]⟩, B⟩] h (ix2 k j') = B (ix2 k q) :=
  concatenate_pair_apply_right 1 A B h (ix2 k j') rfl rfl (ix2 k q) (fun d hd => by
    match d with
    | ⟨0, _⟩ => rfl
    | ⟨1, _⟩ => exact absurd rfl hd) (by show q.val + a = j'.val; omega)

end Cert.LibConcatPair

end
-- ==== Proof.RefMsg.lean ====
/-
  The reference's messages, and the edge features they are computed from.

  The reference forms, per edge e from node s to node t, the feature row [x_t, x_s - x_t] of length 512, and puts it
  through a dense layer (W1, b1), the rectifier, and a second dense layer (W2, b2). Read at an entry, the feature row
  is x at the target node's row in its first 256 places and the difference of the source's and the target's rows
  in its last 256; a node's row is its number as a signed integer, clamped into [0, 9999].
-/
import proofs.«134763_j76441827934549_2_alg».proof.Proof.Gen.ReferenceIdeal.Read
import proofs.«134763_j76441827934549_2_alg».proof.Proof.LibPlainDot
import proofs.«134763_j76441827934549_2_alg».proof.Proof.LibDenseLayer
import proofs.«134763_j76441827934549_2_alg».proof.Proof.LibConcatPair
import proofs.«134763_j76441827934549_2_alg».proof.Proof.LibRowGatherScatter
import proofs.«134763_j76441827934549_2_alg».proof.Proof.LibSplitLayer

noncomputable section

namespace Cert.ReferenceIdeal.Msg

open Idealize.ShloMosaic Idealize.ShloMosaic.ValueIdx
open Cert.ReferenceIdeal Cert.ReferenceIdeal.Gen Cert.ReferenceIdeal.Read
open Cert.LibDenseLayer (affine relu)
open Cert.EdgeConv (lo hi)
open Cert.Lib.RowGatherScatter (rowOf)

/-- THE REFERENCE'S MESSAGES: two dense layers with the rectifier between, of the edge features. -/
theorem msg_eq (x0 : (⟨S10000x256, .f32⟩ : BufTy).Contents (Elt Ideal)) (x2 : (⟨S2x320000, .i32⟩ : BufTy).Contents (Elt Ideal))
    (x4 : (⟨S512x512, .f32⟩ : BufTy).Contents (Elt Ideal)) (x5 : (⟨S512, .f32⟩ : BufTy).Contents (Elt Ideal))
    (x6 : (⟨S512x256, .f32⟩ : BufTy).Contents (Elt Ideal)) (x7 : (⟨S256, .f32⟩ : BufTy).Contents (Elt Ideal)) :
    val_main_v28 (F := Ideal) x0 x2 x4 x5 x6 x7
      = affine (relu (affine (val_main_v19 (F := Ideal) x0 x2) x4 x5)) x6 x7 := by
  have h1 := Cert.LibDenseLayer.dot_bias (M := 320000) (K := 512) (N := 512) dot_S320000x512_S512x512_S320000x512_1_0_0_1_n_n_wf
    bcast_S512_S1x512_1 bcast_S1x512_S320000x512_0_1 (val_main_v19 (F := Ideal) x0 x2) x4 x5
  have h2 := Cert.LibDenseLayer.max_bcast (s := S320000x512) bcast_S_S320000x512 (affine (val_main_v19 (F := Ideal) x0 x2) x4 x5)
  have h3 := Cert.LibDenseLayer.dot_bias (M := 320000) (K := 512) (N := 256) dot_S320000x512_S512x256_S320000x256_1_0_0_1_n_n_wf
    bcast_S256_S1x256_1 bcast_S1x256_S320000x256_0_1 (relu (affine (val_main_v19 (F := Ideal) x0 x2) x4 x5)) x6 x7
  rw [← h3, ← h2, ← h1]
  rfl

/-- A row gather of the 256-wide feature array at edge e, column j. -/
theorem gather256_apply (x : FVec Ideal S10000x256 .f32) (idx : IVec S320000x1 32) (e : Fin 320000) (j : Fin 256) :
    Host.gather gather_S10000x256_S320000x1_S320000x256_1_0_n_n_0_1_1256 x idx (ix2 e j)
      = x (ix2 (rowOf 10000 (by decide) idx e) j) :=
  Cert.Lib.RowGatherScatter.gather_rows_apply (N := 10000) (D := 256) (E := 320000) (by decide)
    gather_S10000x256_S320000x1_S320000x256_1_0_n_n_0_1_1256_wf x idx e j

/-- The first half of an edge's feature row: the target node's features. -/
theorem feat_lo (x0 : (⟨S10000x256, .f32⟩ : BufTy).Contents (Elt Ideal)) (x2 : (⟨S2x320000, .i32⟩ : BufTy).Contents (Elt Ideal))
    (e : Fin 320000) (j : Fin 256) :
    val_main_v19 (F := Ideal) x0 x2 (ix2 e (lo j)) = x0 (ix2 (rowOf 10000 (by decide) (val_main_v9 (F := Ideal) x2) e) j) := by
  unfold val_main_v19
  refine (Cert.LibConcatPair.left _ _ concatenates_S320000x256_S320000x256_S320000x512_d1 e j (lo j) rfl).trans ?_
  unfold val_main_v10
  exact gather256_apply x0 _ e j

/-- The second half: the source node's features minus the target node's. -/
theorem feat_hi (x0 : (⟨S10000x256, .f32⟩ : BufTy).Contents (Elt Ideal)) (x2 : (⟨S2x320000, .i32⟩ : BufTy).Contents (Elt Ideal))
    (e : Fin 320000) (j : Fin 256) :
    val_main_v19 (F := Ideal) x0 x2 (ix2 e (hi j))
      = x0 (ix2 (rowOf 10000 (by decide) (val_main_v16 (F := Ideal) x2) e) j)
        - x0 (ix2 (rowOf 10000 (by decide) (val_main_v9 (F := Ideal) x2) e) j) := by
  unfold val_main_v19
  refine (Cert.LibConcatPair.right _ _ concatenates_S320000x256_S320000x256_S320000x512_d1 e j (hi j) rfl).trans ?_
  unfold val_main_v18 val_main_v17 val_main_v10
  show Host.gather gather_S10000x256_S320000x1_S320000x256_1_0_n_n_0_1_1256 x0 (val_main_v16 (F := Ideal) x2) (ix2 e j)
      - Host.gather gather_S10000x256_S320000x1_S320000x256_1_0_n_n_0_1_1256 x0 (val_main_v9 (F := Ideal) x2) (ix2 e j) = _
  rw [gather256_apply, gather256_apply]

end Cert.ReferenceIdeal.Msg

end
-- ==== Proof.Bridge.lean ====
/-
  The two programs compute the same messages, and end with the same pooling.

  Per edge e from node s to node t, and hidden unit k, the kernel adds row t of A = x . (Wa - Wb) and row s of B = x . Wb,
  where the reference multiplies the feature row [x_t, x_s - x_t] with W1 = [Wa; Wb]: the split of the first layer, valid
  because x and W1 hold real numbers. The bias, the rectifier, the second layer and the two poolings are the same
  operations on both sides. Both programs read a node's row from the same normalised index column.
-/
import proofs.«134763_j76441827934549_2_alg».proof.Proof.KernelNode
import proofs.«134763_j76441827934549_2_alg».proof.Proof.KernelArray
import proofs.«134763_j76441827934549_2_alg».proof.Proof.KernelTail
import proofs.«134763_j76441827934549_2_alg».proof.Proof.RefMsg
import proofs.«134763_j76441827934549_2_alg».proof.Proof.LibSplitLayer

noncomputable section

namespace Cert.EdgeConv

open Idealize.ShloMosaic Idealize.ShloMosaic.ValueIdx
open Cert.KernelIdeal.Entry (nodeA nodeB col wrap dstRaw srcRaw tail nodeA_apply nodeB_apply gather512_apply)
open Cert.KernelIdeal.Msg (hidden msg)
open Cert.ReferenceIdeal.Read
open Cert.ReferenceIdeal.Msg (feat_lo feat_hi msg_eq)
open Cert.LibDenseLayer (affine relu)
open Cert.Lib.RowGatherScatter (rowOf)

/-- The reference's normalised target column is the kernel's. -/
theorem dstCol_eq (ei : (⟨Cert.ReferenceIdeal.S2x320000, .i32⟩ : BufTy).Contents (Elt Ideal)) :
    col (wrap (dstRaw ei)) = val_main_v9 (F := Ideal) ei := rfl

/-- The reference's normalised source column is the kernel's. -/
theorem srcCol_eq (ei : (⟨Cert.ReferenceIdeal.S2x320000, .i32⟩ : BufTy).Contents (Elt Ideal)) :
    col (wrap (srcRaw ei)) = val_main_v16 (F := Ideal) ei := rfl

/-- THE HIDDEN VALUES AGREE: the gathered node products plus the bias are the first dense layer of the edge features. -/
theorem hidden_eq (x : (⟨Cert.ReferenceIdeal.S10000x256, .f32⟩ : BufTy).Contents (Elt Ideal))
    (ei : (⟨Cert.ReferenceIdeal.S2x320000, .i32⟩ : BufTy).Contents (Elt Ideal))
    (w1 : (⟨Cert.ReferenceIdeal.S512x512, .f32⟩ : BufTy).Contents (Elt Ideal))
    (b1 : (⟨Cert.ReferenceIdeal.S512, .f32⟩ : BufTy).Contents (Elt Ideal))
    (hx : ∀ i, ∃ r : ℝ, x i = r) (hw : ∀ i, ∃ r : ℝ, w1 i = r) :
    hidden (E := 320000)
        (Host.gather Cert.KernelIdeal.gather_S10000x512_S320000x1_S320000x512_1_0_n_n_0_1_1512 (nodeA x w1) (val_main_v9 (F := Ideal) ei))
        (Host.gather Cert.KernelIdeal.gather_S10000x512_S320000x1_S320000x512_1_0_n_n_0_1_1512 (nodeB x w1) (val_main_v16 (F := Ideal) ei)) b1
      = affine (val_main_v19 (F := Ideal) x ei) w1 b1 := by
  funext i
  obtain ⟨e, k, rfl⟩ : ∃ (e : Fin 320000) (k : Fin 512), i = ix2 e k := ⟨i 0, i 1, eq_ix2 i⟩
  show (Host.gather Cert.KernelIdeal.gather_S10000x512_S320000x1_S320000x512_1_0_n_n_0_1_1512 (nodeA x w1) (val_main_v9 (F := Ideal) ei) (ix2 e k)
        + Host.gather Cert.KernelIdeal.gather_S10000x512_S320000x1_S320000x512_1_0_n_n_0_1_1512 (nodeB x w1) (val_main_v16 (F := Ideal) ei) (ix2 e k))
        + b1 (ix1 k)
      = (∑ j' : Fin 512, val_main_v19 (F := Ideal) x ei (ix2 e j') * w1 (ix2 j' k)) + b1 (ix1 k)
  refine congrArg (· + b1 (ix1 k)) ?_
  rw [gather512_apply, gather512_apply, nodeA_apply, nodeB_apply]
  exact split_entry lo hi (fun f => sum_halves f)
    (fun j => x (ix2 (rowOf 10000 (by decide) (val_main_v9 (F := Ideal) ei) e) j))
    (fun j => x (ix2 (rowOf 10000 (by decide) (val_main_v16 (F := Ideal) ei) e) j))
    (fun j' => w1 (ix2 j' k)) (fun j' => val_main_v19 (F := Ideal) x ei (ix2 e j'))
    (fun j => hx _) (fun j => hx _) (fun j' => hw _)
    (fun j => feat_lo x ei e j) (fun j => feat_hi x ei e j)

/-- THE MESSAGES AGREE. -/
theorem msg_bridge (x : (⟨Cert.ReferenceIdeal.S10000x256, .f32⟩ : BufTy).Contents (Elt Ideal))
    (ei : (⟨Cert.ReferenceIdeal.S2x320000, .i32⟩ : BufTy).Contents (Elt Ideal))
    (w1 : (⟨Cert.ReferenceIdeal.S512x512, .f32⟩ : BufTy).Contents (Elt Ideal))
    (b1 : (⟨Cert.ReferenceIdeal.S512, .f32⟩ : BufTy).Contents (Elt Ideal))
    (w2 : (⟨Cert.ReferenceIdeal.S512x256, .f32⟩ : BufTy).Contents (Elt Ideal))
    (b2 : (⟨Cert.ReferenceIdeal.S256, .f32⟩ : BufTy).Contents (Elt Ideal))
    (hx : ∀ i, ∃ r : ℝ, x i = r) (hw : ∀ i, ∃ r : ℝ, w1 i = r) :
    msg (E := 320000)
        (Host.gather Cert.KernelIdeal.gather_S10000x512_S320000x1_S320000x512_1_0_n_n_0_1_1512 (nodeA x w1) (col (wrap (dstRaw ei))))
        (Host.gather Cert.KernelIdeal.gather_S10000x512_S320000x1_S320000x512_1_0_n_n_0_1_1512 (nodeB x w1) (col (wrap (srcRaw ei)))) b1 w2 b2
      = val_main_v28 (F := Ideal) x ei w1 b1 w2 b2 := by
  rw [msg_eq, dstCol_eq, srcCol_eq]
  unfold msg
  rw [hidden_eq x ei w1 b1 hx hw]

/-- THE TAILS AGREE: the reference's result is the pooling tail of its messages. -/
theorem ref_tail_eq (x0 : (⟨Cert.ReferenceIdeal.S10000x256, .f32⟩ : BufTy).Contents (Elt Ideal))
    (x1 : (⟨Cert.ReferenceIdeal.S10000x4, .f32⟩ : BufTy).Contents (Elt Ideal))
    (x2 : (⟨Cert.ReferenceIdeal.S2x320000, .i32⟩ : BufTy).Contents (Elt Ideal))
    (x3 : (⟨Cert.ReferenceIdeal.S10000, .i32⟩ : BufTy).Contents (Elt Ideal))
    (x4 : (⟨Cert.ReferenceIdeal.S512x512, .f32⟩ : BufTy).Contents (Elt Ideal))
    (x5 : (⟨Cert.ReferenceIdeal.S512, .f32⟩ : BufTy).Contents (Elt Ideal))
    (x6 : (⟨Cert.ReferenceIdeal.S512x256, .f32⟩ : BufTy).Contents (Elt Ideal))
    (x7 : (⟨Cert.ReferenceIdeal.S256, .f32⟩ : BufTy).Contents (Elt Ideal)) :
    val_main_v37 (F := Ideal) x0 x1 x2 x3 x4 x5 x6 x7 = tail x1 (dstRaw x2) x3 (val_main_v28 (F := Ideal) x0 x2 x4 x5 x6 x7) := rfl

end Cert.EdgeConv

end
-- ==== Proof.LibFiniteReal.lean ====
/-
  GENERAL LEMMAS: a `finite inputs` precondition read back on the extended reals.

  A precondition of the form `jnp.all (jnp.abs a < inf)` prints as a host `reduce` by `and`, from the constant
  one, of the comparison `|a| < +∞` against the f32 pattern `0x7F800000` broadcast from a scalar. On the extended
  reals `|v| = max v (-v)` is `+∞` at both infinities, so `|v| < +∞` says exactly that `v` is a real number.
  `real_of_all` turns ONE such conjunct, for an array of any shape reduced over any axes into a scalar, into
  `∀ i, ∃ r : ℝ, a i = r`. Imports only the library.
-/
import Idealize.ShloMosaic.Lib.ReduceAll
import Idealize.ShloMosaic.Lib.ValueIdx
import Idealize.ShloMosaic.PureOps.Ideal

noncomputable section

namespace Cert.FiniteReal

open Idealize.ShloMosaic Idealize.ShloMosaic.ValueIdx

/-- The f32 pattern `0x7F800000` is `+∞`. -/
theorem ofBits_pos_inf : Ideal.ofBits .f32 0x7F800000#32 = ⊤ := by simp [Ideal.ofBits, Ideal.ieee]

/-- `|v| < +∞` on the extended reals: `v` is real. -/
theorem real_of_abs_lt (v : EReal)
    (h : Ideal.cmp .olt (max v (-v)) (Ideal.ofBits .f32 0x7F800000#32) = 1#1) : ∃ r : ℝ, v = r := by
  rw [ofBits_pos_inf] at h
  induction v using EReal.rec with
  | bot =>
    exfalso
    rw [EReal.neg_bot, max_eq_right bot_le] at h
    simp [Ideal.cmp] at h
  | coe r => exact ⟨r, rfl⟩
  | top =>
    exfalso
    rw [max_eq_left le_top] at h
    simp [Ideal.cmp] at h

/-- A scalar has one index. -/
instance scalarIdx_subsingleton : Subsingleton (⟨0, ![]⟩ : Shape).Idx := ⟨fun a b => funext fun d => d.elim0⟩

/-- ONE CONJUNCT OF THE PRECONDITION, read back: an array whose `all (|a| < +∞)` is one has real entries. -/
theorem real_of_all {s : Shape} {axes : List (Fin s.rank)} (a : FVec Ideal s .f32)
    (hb : (⟨0, ![]⟩ : Shape).BroadcastsInDim s (![] : Fin 0 → Fin s.rank))
    (hr : s.ReducesTo axes (⟨0, ![]⟩ : Shape)) (hu : 0 < (⟨0, ![]⟩ : Shape).numel)
    (h : Host.reduce IntOp.andi
        (cmpf .olt (Host.absf a) (broadcastInDim s ![] hb (constant (F := Ideal) (⟨0, ![]⟩ : Shape) .f32 0x7F800000#32)))
        (constantI (⟨0, ![]⟩ : Shape) 1 1#1) hr hu ix0 = 1#1) (i : s.Idx) : ∃ r : ℝ, a i = r :=
  real_of_abs_lt (a i) (Host.reduce_andi_all _ _ hr hu ix0 h i)

end Cert.FiniteReal

end
-- ==== Proof.PreReal.lean ====
/-
  What the precondition gives: the node features and the first weight matrix hold real numbers.

  The precondition is the conjunction, over the six float inputs, of "every entry has absolute value below +inf". The
  split of the first layer needs it of two of them: x (the first conjunct) and W1 (the third).
-/
import proofs.«134763_j76441827934549_2_alg».proof.Proof.Gen.Pre_finite_inputs
import proofs.«134763_j76441827934549_2_alg».proof.Proof.LibFiniteReal
import Idealize.ShloMosaic.Lib.Affine

noncomputable section

namespace Cert.Pre_finite_inputs.Real

open Idealize.ShloMosaic Idealize.ShloMosaic.ValueIdx
open Cert.Pre_finite_inputs Cert.Pre_finite_inputs.Gen

/-- Under the precondition every entry of x and every entry of W1 is a real number. -/
theorem real_x_w1 (x0 : FVec Ideal S10000x256 .f32) (x1 : FVec Ideal S10000x4 .f32) (x2 : IVec S2x320000 32) (x3 : IVec S10000 32)
    (x4 : FVec Ideal S512x512 .f32) (x5 : FVec Ideal S512 .f32) (x6 : FVec Ideal S512x256 .f32) (x7 : FVec Ideal S256 .f32)
    (h : Cert.Pre_finite_inputs.fn (F := Ideal) x0 x1 x2 x3 x4 x5 x6 x7 = fun _ => 1#1) :
    (∀ i, ∃ r : ℝ, x0 i = r) ∧ (∀ i, ∃ r : ℝ, x4 i = r) := by
  have h0 := congrFun h ix0
  dsimp only [Cert.Pre_finite_inputs.fn, Cert.Pre_finite_inputs.fn_part1] at h0
  obtain ⟨h0, -⟩ := IntOp.andi_eq_one.mp h0
  obtain ⟨h0, -⟩ := IntOp.andi_eq_one.mp h0
  obtain ⟨h0, -⟩ := IntOp.andi_eq_one.mp h0
  obtain ⟨h0, h12⟩ := IntOp.andi_eq_one.mp h0
  obtain ⟨h3, -⟩ := IntOp.andi_eq_one.mp h0
  exact ⟨fun i => Cert.FiniteReal.real_of_all x0 _ _ _ h3 i, fun i => Cert.FiniteReal.real_of_all x4 _ _ _ h12 i⟩

end Cert.Pre_finite_inputs.Real

end
-- ==== Proof.lean ====
/-
  An edge convolution with sum pooling: a Pallas kernel for the edge-wise layers against its jnp reference, equal as
  functions on the extended reals when the float inputs are finite.

  The reference forms per edge the feature row [x_t, x_s - x_t] (t the edge's target node, s its source), applies a dense
  layer (W1, b1), the rectifier and a second dense layer (W2, b2), sums the messages into their target nodes, weights each
  node's sum by the node's energy and sums the nodes into their graphs. The kernel's program splits the first layer,
      [x_t, x_s - x_t] . W1 = x_t . (Wa - Wb) + x_s . Wb      (Wa, Wb the two halves of W1),
  computes the two products once per node on the host, gathers them per edge, and runs the rest of the edge-wise work
  block by block in its region; the poolings follow on the host, spelt as in the reference. The split moves a factor
  across a difference, so it is where the precondition is used: x and W1 hold real numbers. Everything else is the same
  operations on both sides: changes of float format are the identity on the extended reals, a matrix product accumulated
  from zero is the host's product, and the 100 row blocks of the message array tile it.
  The three frames are the generated ones (the reference's is its run with the result dropped); the idealization rewrote
  nothing, so there is nothing to preserve.
-/
import proofs.«134763_j76441827934549_2_alg».proof.Defs
import proofs.«134763_j76441827934549_2_alg».proof.Proof.Gen.Kernel
import proofs.«134763_j76441827934549_2_alg».proof.Proof.Gen.Kernel.Skeleton
import proofs.«134763_j76441827934549_2_alg».proof.Proof.Gen.Kernel.Launch
import proofs.«134763_j76441827934549_2_alg».proof.Proof.Gen.Kernel.Points
import proofs.«134763_j76441827934549_2_alg».proof.Proof.Gen.Kernel.Frame
import proofs.«134763_j76441827934549_2_alg».proof.Proof.Gen.KernelIdeal
import proofs.«134763_j76441827934549_2_alg».proof.Proof.Gen.KernelIdeal.Skeleton
import proofs.«134763_j76441827934549_2_alg».proof.Proof.Gen.KernelIdeal.Launch
import proofs.«134763_j76441827934549_2_alg».proof.Proof.Gen.KernelIdeal.Points
import proofs.«134763_j76441827934549_2_alg».proof.Proof.Gen.KernelIdeal.Frame
import proofs.«134763_j76441827934549_2_alg».proof.Proof.Gen.ReferenceIdeal
import proofs.«134763_j76441827934549_2_alg».proof.Proof.Gen.Pre_finite_inputs
import proofs.«134763_j76441827934549_2_alg».proof.Proof.Gen.ReferenceIdeal.Run
import proofs.«134763_j76441827934549_2_alg».proof.Proof.Gen.ReferenceIdeal.Read
import proofs.«134763_j76441827934549_2_alg».proof.Proof.KernelRun
import proofs.«134763_j76441827934549_2_alg».proof.Proof.Bridge
import proofs.«134763_j76441827934549_2_alg».proof.Proof.PreReal
import Idealize.ShloMosaic.Adequacy
import Idealize.ShloMosaic.Init

noncomputable section

namespace Cert.Proof

open Idealize.ShloMosaic Idealize.ShloMosaic.TcCoe Idealize.SL.Sem

/-- The word-level kernel program's frame: generated. -/
theorem frame_k : Cert.frame_Kernel := fun m ρ _ => Cert.Kernel.Gen.frame m ρ

/-- The idealized kernel program's frame: generated. -/
theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

set_option maxRecDepth 8192 in
set_option maxHeartbeats 2000000 in
/-- Both programs end with the pooling tail of the same messages: the kernel's by its run read block by block, the
    reference's by its run read one operation at a time, the two message arrays equal by the split of the first layer. -/
theorem algebraic : Cert.algebraic_KernelIdeal_ReferenceIdeal := by
  intro m ρ m' ρ' hpre hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  show _ = Cert.KernelIdeal.Whole.result m c
  obtain ⟨hx, hw⟩ := Cert.Pre_finite_inputs.Real.real_x_w1 _ _ _ _ _ _ _ _ (hpre c)
  obtain ⟨a0, a1, a2, a3, a4, a5, a6, a7⟩ := hagree c
  rw [Cert.ReferenceIdeal.Read.val_main_v37_eq, Cert.EdgeConv.ref_tail_eq, a0, a1, a2, a3, a4, a5, a6, a7]
  unfold Cert.KernelIdeal.Whole.result
  rw [Cert.EdgeConv.msg_bridge (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) hx hw]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
